-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x16 .f32) (main_arg6 : FVec F S64x16 .f32) (main_arg7 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S10000x1 : Shape := ⟨2, ![10000, 1]⟩
abbrev S1x16 : Shape := ⟨2, ![1, 16]⟩
abbrev S100000x16 : Shape := ⟨2, ![100000, 16]⟩
abbrev S10000x16 : Shape := ⟨2, ![10000, 16]⟩
abbrev S10000 : Shape := ⟨1, ![10000]⟩

abbrev nBuf : Space → Nat
  | .hbm => 49
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S64x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S1x16, .f32⟩
  | .hbm, ⟨48, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x16, .f32⟩
  | .local _ .vmem, ⟨18, _⟩ => ⟨S64x16, .f32⟩
  | .local _ .vmem, ⟨19, _⟩ => ⟨S1x16, .f32⟩
  | .local _ .vmem, ⟨20, _⟩ => ⟨S10000x16, .f32⟩
  | .local _ .vmem, ⟨21, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x16.size a ≤ S64x16.size a
  hwx1_4 : ∀ i : grid1.Coords, EltTy.bits .f32 = 32 ∨ (Rect.block (s := S64x16) S64x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x16.size a ≤ S100000x16.size a
  hwx1_6 : ∀ i : grid1.Coords, EltTy.bits .f32 = 32 ∨ (Rect.block (s := S100000x16) S10000x16.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v18) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S10000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S64x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x16, .f32⟩
  | .hbm, ⟨76, _⟩ => ⟨S100000x16, .f32⟩
  | .hbm, ⟨77, _⟩ => ⟨S100000x16, .f32⟩
  | .hbm, ⟨78, _⟩ => ⟨S1x16, .f32⟩
  | .hbm, ⟨79, _⟩ => ⟨S100000x16, .f32⟩
  | .hbm, ⟨80, _⟩ => ⟨S100000x16, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x16, .f32⟩
  | .hbm, ⟨88, _⟩ => ⟨S100000x16, .f32⟩
  | .hbm, ⟨89, _⟩ => ⟨S100000x16, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x16, .f32⟩
  | .hbm, ⟨95, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The kernel program's whole run with its result named.

  @main is four segments: a stretch of host operations, the first pallas_call, a second stretch, the second
  pallas_call. The buffer contents at the segment boundaries are a fold from the launch memory; at the end every
  unscoped buffer holds the last boundary's contents. The result buffer is the second call's output array, so it ends
  at those contents read at that buffer; the eight arguments end as launched.
-/
import proofs.«129082_j68676527063150_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents `W4` read at it, and the argument arrays end as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.WholeRun

end
-- ==== Proof.SageSpec.lean ====
/-
  The mathematics both programs compute, stated once over the extended reals.

  One SAGE layer with mean aggregation acts on each node (row) `n` by itself: the summed neighbour features
  `agg n ·` are divided by `max (deg n) 1`, multiplied into `Wl`, the node's own features `x n ·` are
  multiplied into `Wr`, and the bias is added:

      pre n c = (∑ₖ (agg n k / max (deg n) 1) · Wl k c  +  ∑ₖ x n k · Wr k c) + b c.

  The first layer ends in `max · 0`; the second in the row-wise log-softmax
  `z n c − M n − log ∑ⱼ exp (z n j − M n)` with `M n = max (−∞) (maxⱼ z n j)`.
  The two layers are chained through a map `aggOf` from node features to summed neighbour features (the
  gather along edge sources followed by the scatter-add onto edge targets); nothing here looks inside it.
  The three float words that occur (1, 0, −∞) are kept as their bit patterns: both programs spell the same words.
-/
import Idealize.ShloMosaic.PureOps.Ideal
import Idealize.ShloMosaic.Lib.ValueIdx

noncomputable section

namespace Cert.Sage

open Idealize.ShloMosaic Idealize.ShloMosaic.ValueIdx

/-- The f32 word of 1.0, read as an extended real. -/
abbrev one : EReal := Ideal.ofBits .f32 0x3F800000#32
/-- The f32 word of 0.0, read as an extended real. -/
abbrev zero : EReal := Ideal.ofBits .f32 0x00000000#32
/-- The f32 word of −∞, read as an extended real. -/
abbrev ninf : EReal := Ideal.ofBits .f32 0xFF800000#32

variable {N D C : ℕ}

/-- A layer before its activation, at node `n` and output feature `c`: the degree-normalised neighbour sum into
    `wl`, the node's own row into `wr`, plus the bias. -/
def pre (agg : (⟨2, ![N, D]⟩ : Shape).Idx → EReal) (deg : Fin N → EReal) (x : (⟨2, ![N, D]⟩ : Shape).Idx → EReal)
    (wl wr : (⟨2, ![D, C]⟩ : Shape).Idx → EReal) (b : Fin C → EReal) (n : Fin N) (c : Fin C) : EReal :=
  ((∑ k : Fin D, Ideal.div (agg (ix2 n k)) (max (deg n) one) * wl (ix2 k c))
      + ∑ k : Fin D, x (ix2 n k) * wr (ix2 k c)) + b c

/-- The layer followed by `max · 0`, as a whole [N, C] array. -/
def layerRelu (agg : (⟨2, ![N, D]⟩ : Shape).Idx → EReal) (deg : Fin N → EReal) (x : (⟨2, ![N, D]⟩ : Shape).Idx → EReal)
    (wl wr : (⟨2, ![D, C]⟩ : Shape).Idx → EReal) (b : Fin C → EReal) : (⟨2, ![N, C]⟩ : Shape).Idx → EReal :=
  fun i => max (pre agg deg x wl wr b (i 0) (i 1)) zero

/-- The largest entry of row `n` of `z`, started from −∞ and once more compared with −∞ (as both programs do). -/
def rowTop (z : Fin N → Fin C → EReal) (n : Fin N) : EReal :=
  max ninf ((Finset.univ : Finset (Fin C)).fold max ninf (fun j => z n j))

/-- Row-wise log-softmax: the entry minus the row's top, minus the log of the row's sum of exponentials of the
    shifted entries. -/
def logSoftmax (z : Fin N → Fin C → EReal) (n : Fin N) (c : Fin C) : EReal :=
  (z n c - rowTop z n) - Ideal.log (∑ j : Fin C, Ideal.exp (z n j - rowTop z n))

/-- The layer followed by the row-wise log-softmax, as a whole [N, C] array. -/
def layerLogSoftmax (agg : (⟨2, ![N, D]⟩ : Shape).Idx → EReal) (deg : Fin N → EReal) (x : (⟨2, ![N, D]⟩ : Shape).Idx → EReal)
    (wl wr : (⟨2, ![D, C]⟩ : Shape).Idx → EReal) (b : Fin C → EReal) : (⟨2, ![N, C]⟩ : Shape).Idx → EReal :=
  fun i => logSoftmax (pre agg deg x wl wr b) (i 0) (i 1)

/-- The two layers chained through the neighbour-sum map `aggOf` (the same map and the same degrees in both). -/
def twoLayers {H : ℕ} (aggOf : ((⟨2, ![N, D]⟩ : Shape).Idx → EReal) → (⟨2, ![N, D]⟩ : Shape).Idx → EReal)
    (aggOf' : ((⟨2, ![N, H]⟩ : Shape).Idx → EReal) → (⟨2, ![N, H]⟩ : Shape).Idx → EReal)
    (deg : Fin N → EReal) (x : (⟨2, ![N, D]⟩ : Shape).Idx → EReal)
    (w1l w1r : (⟨2, ![D, H]⟩ : Shape).Idx → EReal) (b1 : Fin H → EReal)
    (w2l w2r : (⟨2, ![H, C]⟩ : Shape).Idx → EReal) (b2 : Fin C → EReal) : (⟨2, ![N, C]⟩ : Shape).Idx → EReal :=
  layerLogSoftmax (aggOf' (layerRelu (aggOf x) deg x w1l w1r b1)) deg (layerRelu (aggOf x) deg x w1l w1r b1) w2l w2r b2

end Cert.Sage

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.Region0.lean ====
/-
  The kernel's first region, read as mathematics.

  The region runs over ten grid points; point `t` works on rows `t · 10000 … t · 10000 + 9999` of the three
  row-blocked operands (the summed neighbour features [100000, 64], the in-degree column [100000, 1], the node
  features [100000, 64]) and of the output [100000, 64], and on the whole of the two weight matrices [64, 64] and of
  the bias row [1, 64].  For ANY contents `V` of these arrays when the region is entered, the output array ends
  holding the first layer of them, `Cert.Sage.layerRelu`:

      out (n, c) = max ((∑ₖ agg (n, k) / max (deg n) 1 · Wl (k, c)  +  ∑ₖ x (n, k) · Wr (k, c)) + b c) 0.

  Three steps.  (1) `payload_apply`: over the extended reals the body's value at entry `(p, q)` of a block is that
  formula of the block-local rows — the two matrix products into a zero accumulator are plain sums over the 64
  contracted features, the degree column is read at `(p, 0)` and the bias row at `(0, q)` where their broadcasts read
  them, and the shape casts to the same shape and the format changes are the identity.  (2) `flushed_eq`: row `p` of
  a block at point `t` is row `t · 10000 + p` of its array (`agg_blk` … `out_blk_emb`; an entry of a block sits at
  block index × block extent + 1 × its coordinate inside the block), and the whole-matrix blocks are the matrices, so
  what point `t` writes back is block `t` of the layer of the whole arrays.  (3) `cover`, `final`: row `r` of the
  output lies in the block of point `r / 10000`, every point writes its block back, hence the array is the layer.
-/
import proofs.«129082_j68676527063150_1_alg».proof.Proof.Gen.KernelIdeal.Frame
import proofs.«129082_j68676527063150_1_alg».proof.Proof.SageSpec
import proofs.«129082_j68676527063150_1_alg».proof.Proof.LibKeepdims
import proofs.«129082_j68676527063150_1_alg».proof.Proof.LibRowOps
import Idealize.ShloMosaic.Lib.Pipeline.Value
import Idealize.ShloMosaic.Lib.ValueIdx
import Idealize.ShloMosaic.PureOps.Ideal.Laws

noncomputable section

open Idealize.ShloMosaic Idealize.ShloMosaic.ValueIdx Idealize.ShloMosaic.TcCoe Idealize.SL.Sem
open Idealize.ShloMosaic.Pipeline (Dat)

namespace Cert.KernelIdeal.Region0

open Cert.KernelIdeal Cert.KernelIdeal.Facts₀ Cert.KernelIdeal.Facts

/-- One block of the layer: row `p` of the block's output is `max · 0` of the layer's row formula applied to the
    block-local rows of the three row-blocked operands, the whole weight matrices and the bias row. The two matrix
    products are plain sums over the 64 contracted features; the degree column and the bias row are read where
    their broadcasts read them; the format changes are the identity over the extended reals. -/
theorem payload_apply (v0 : Vec Ideal S10000x1 .f32) (v4 v9 : Vec Ideal S10000x64 .f32)
    (v11 v13 : Vec Ideal S64x64 .f32) (v18 : Vec Ideal S1x64 .f32) (p : Fin 10000) (q : Fin 64) :
    Gen.k0_pay1 (F := Ideal) v0 v4 v9 v11 v13 v18 (ix2 p q)
      = max (Cert.Sage.pre (N := 10000) (D := 64) (C := 64) v4 (fun n => v0 (ix2 n (0 : Fin 1))) v9 v11 v13
          (fun k => v18 (ix2 (0 : Fin 1) k)) p q) Cert.Sage.zero := by
  unfold Gen.k0_pay1 Cert.Sage.pre
  dsimp only
  -- the last three operations are pointwise: max, and two sums of entries
  show max ((matmul _ none _ _ _ (ix2 p q) + matmul _ none _ _ _ (ix2 p q)) + broadcastTo S10000x64 _ _ (ix2 p q))
      (Ideal.ofBits .f32 0x00000000#32) = _
  refine congrArg₂ max (congrArg₂ (· + ·) (congrArg₂ (· + ·) ?_ ?_) ?_) rfl
  · -- the normalised neighbour rows into Wl: a plain sum over the contracted feature k
    refine (Cert.KernelBody.matmul_plain_zero_apply (m := 10000) (k := 64) (n := 64)
      dot_S10000x64_S64x64_S10000x64_1_0_0_1_n_n_wf none _ _ p q).trans ?_
    refine Finset.sum_congr rfl fun k _ => ?_
    refine congrArg₂ (· * ·) ?_ rfl
    -- entry (p, k) of the quotient: agg (p, k) over the degree column's entry (p, 0) capped below by 1
    refine congrArg₂ Ideal.div (congrFun (shapeCast_self v4 _) (ix2 p k)) ?_
    refine (Cert.LibKeepdims.broadcastTo_col_apply _ _ p k).trans ?_
    exact congrArg₂ max (congrFun (shapeCast_self v0 _) (ix2 p (0 : Fin 1))) rfl
  · -- the node's own rows into Wr
    exact Cert.KernelBody.matmul_plain_zero_apply (m := 10000) (k := 64) (n := 64)
      dot_S10000x64_S64x64_S10000x64_1_0_0_1_n_n_wf none _ _ p q
  · -- the bias row, broadcast down the rows
    refine (Cert.KernelBody.broadcastTo_row_apply _ _ p q).trans ?_
    exact (congrFun (shapeCast_self _ _) (ix2 (0 : Fin 1) q)).trans (congrFun (shapeCast_self v18 _) (ix2 (0 : Fin 1) q))

/-! ## The layer of the whole arrays, and the rows of a block -/

variable (V : (c : Dev nD) → (b : Ref sig .tc) → Buf (Elt Ideal) ((c : Thread nD τ).loc b))

/-- The first layer (its row formula followed by `max · 0`) of the six operand arrays as the region finds them:
    the summed neighbour features, the in-degree column, the node features, the two weight matrices, the bias row. -/
abbrev layerOf (c : Dev nD) : (⟨2, ![100000, 64]⟩ : Shape).Idx → EReal :=
  Cert.Sage.layerRelu (V c (Pipeline.arrRef spec0 0)) (fun n => V c (Pipeline.arrRef spec0 1) (ix2 n (0 : Fin 1)))
    (V c (Pipeline.arrRef spec0 2)) (V c (Pipeline.arrRef spec0 3)) (V c (Pipeline.arrRef spec0 4))
    (fun k => V c (Pipeline.arrRef spec0 5) (ix2 (0 : Fin 1) k))

theorem hz : (![0, 0] : Fin 2 → Nat) = fun _ => 0 := funext fun a => by fin_cases a <;> rfl

/-- Row `p` of the block of grid point `t` is row `t · 10000 + p` of the array. -/
def rowOf (t : Fin cfg0.N) (p : Fin 10000) : Fin 100000 :=
  ⟨t.val * 10000 + p.val, by have h : t.val < 10 := lt_of_lt_of_eq t.isLt Gen.N_0; have := p.isLt; omega⟩

/-- The printed index maps over the ten grid points: the four row-blocked windows sit at block (t, 0), the three
    whole windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as rows of its array

A block's entry sits in the array, on each axis, at block index × block extent + 1 × the coordinate inside the block. -/

/-- Row `p` of the neighbour-sum block at point `t` is row `t · 10000 + p` of the neighbour sums. -/
theorem agg_blk (c : Dev nD) (t : Fin cfg0.N) (p : Fin 10000) (k : Fin 64) :
    (Gen.iblk0 V c 0 t : S10000x64.Idx → EReal) (ix2 p k)
      = (V c (Pipeline.arrRef spec0 0) : S100000x64.Idx → EReal) (ix2 (rowOf t p) k) := by
  obtain ⟨e0, e1, -⟩ := idx_facts t
  show (V c (Pipeline.arrRef spec0 0) : S100000x64.Idx → EReal) (((cfg0.win 0).blk t).view.emb (ix2 p k)) = _
  refine congrArg _ ?_
  funext a; apply Fin.ext
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- Row `p` of the degree block at point `t` is row `t · 10000 + p` of the degree column. -/
theorem deg_blk (c : Dev nD) (t : Fin cfg0.N) (p : Fin 10000) :
    (Gen.iblk0 V c 1 t : S10000x1.Idx → EReal) (ix2 p (0 : Fin 1))
      = (V c (Pipeline.arrRef spec0 1) : S100000x1.Idx → EReal) (ix2 (rowOf t p) (0 : Fin 1)) := by
  obtain ⟨-, -, e0, e1, -⟩ := idx_facts t
  show (V c (Pipeline.arrRef spec0 1) : S100000x1.Idx → EReal) (((cfg0.win 1).blk t).view.emb (ix2 p (0 : Fin 1))) = _
  refine congrArg _ ?_
  funext a; apply Fin.ext
  match a with
  | ⟨0, _⟩ => show win0_1.index t (0 : Fin 2) * 10000 + 1 * p.val = t.val * 10000 + p.val; rw [e0]; omega
  | ⟨1, _⟩ => show win0_1.index t (1 : Fin 2) * 1 + 1 * 0 = 0; rw [e1]

/-- Row `p` of the feature block at point `t` is row `t · 10000 + p` of the node features. -/
theorem x_blk (c : Dev nD) (t : Fin cfg0.N) (p : Fin 10000) (k : Fin 64) :
    (Gen.iblk0 V c 2 t : S10000x64.Idx → EReal) (ix2 p k)
      = (V c (Pipeline.arrRef spec0 2) : S100000x64.Idx → EReal) (ix2 (rowOf t p) k) := by
  obtain ⟨-, -, -, -, e0, e1, -⟩ := idx_facts t
  show (V c (Pipeline.arrRef spec0 2) : S100000x64.Idx → EReal) (((cfg0.win 2).blk t).view.emb (ix2 p k)) = _
  refine congrArg _ ?_
  funext a; apply Fin.ext
  match a with
  | ⟨0, _⟩ => show win0_2.index t (0 : Fin 2) * 10000 + 1 * p.val = t.val * 10000 + p.val; rw [e0]; omega
  | ⟨1, _⟩ => show win0_2.index t (1 : Fin 2) * 64 + 1 * k.val = k.val; rw [e1]; omega

/-- The block of the first weight matrix is the whole matrix at every point. -/
theorem wl_blk (c : Dev nD) (t : Fin cfg0.N) (k q : Fin 64) :
    (Gen.iblk0 V c 3 t : S64x64.Idx → EReal) (ix2 k q) = (V c (Pipeline.arrRef spec0 3) : S64x64.Idx → EReal) (ix2 k q) := by
  obtain ⟨-, -, -, -, -, -, e0, e1, -⟩ := idx_facts t
  show (V c (Pipeline.arrRef spec0 3) : S64x64.Idx → EReal) (((cfg0.win 3).blk t).view.emb (ix2 k q)) = _
  refine congrArg _ ?_
  funext a; apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- The block of the second weight matrix is the whole matrix at every point. -/
theorem wr_blk (c : Dev nD) (t : Fin cfg0.N) (k q : Fin 64) :
    (Gen.iblk0 V c 4 t : S64x64.Idx → EReal) (ix2 k q) = (V c (Pipeline.arrRef spec0 4) : S64x64.Idx → EReal) (ix2 k q) := by
  obtain ⟨-, -, -, -, -, -, -, -, e0, e1, -⟩ := idx_facts t
  show (V c (Pipeline.arrRef spec0 4) : S64x64.Idx → EReal) (((cfg0.win 4).blk t).view.emb (ix2 k q)) = _
  refine congrArg _ ?_
  funext a; apply Fin.ext
  match a with
  | ⟨0, _⟩ => show win0_4.index t (0 : Fin 2) * 64 + 1 * k.val = k.val; rw [e0]; omega
  | ⟨1, _⟩ => show win0_4.index t (1 : Fin 2) * 64 + 1 * q.val = q.val; rw [e1]; omega

/-- The block of the bias row is the whole row at every point. -/
theorem bias_blk (c : Dev nD) (t : Fin cfg0.N) (q : Fin 64) :
    (Gen.iblk0 V c 5 t : S1x64.Idx → EReal) (ix2 (0 : Fin 1) q) = (V c (Pipeline.arrRef spec0 5) : S1x64.Idx → EReal) (ix2 (0 : Fin 1) q) := by
  obtain ⟨-, -, -, -, -, -, -, -, -, -, e0, e1, -⟩ := idx_facts t
  show (V c (Pipeline.arrRef spec0 5) : S1x64.Idx → EReal) (((cfg0.win 5).blk t).view.emb (ix2 (0 : Fin 1) q)) = _
  refine congrArg _ ?_
  funext a; apply Fin.ext
  match a with
  | ⟨0, _⟩ => show win0_5.index t (0 : Fin 2) * 1 + 1 * 0 = 0; rw [e0]
  | ⟨1, _⟩ => show win0_5.index t (1 : Fin 2) * 64 + 1 * q.val = q.val; rw [e1]; omega

/-- Entry `(p, q)` of the output block at point `t` sits at `(t · 10000 + p, q)` of the output array. -/
theorem out_blk_emb (t : Fin cfg0.N) (p : Fin 10000) (q : Fin 64) :
    ((cfg0.win 6).blk t).view.emb (ix2 p q) = (ix2 (rowOf t p) q : S100000x64.Idx) := by
  obtain ⟨-, -, -, -, -, -, -, -, -, -, -, -, e0, e1⟩ := idx_facts t
  funext a; apply Fin.ext
  match a with
  | ⟨0, _⟩ => show win0_6.index t (0 : Fin 2) * 10000 + 1 * p.val = t.val * 10000 + p.val; rw [e0]; omega
  | ⟨1, _⟩ => show win0_6.index t (1 : Fin 2) * 64 + 1 * q.val = q.val; rw [e1]; omega

/-! ## What a grid point writes back -/

/-- Point `t` writes back block `t` of the layer of the whole arrays: the body's payload at `(p, q)` is the layer's
    row formula of the block-local rows, and those are rows `t · 10000 + p` of the arrays. -/
theorem flushed_eq (c : Dev nD) (t : Fin cfg0.N) :
    (Gen.dat0 (F := Ideal) V c).flushed 6 t = ((cfg0.win 6).blk t).view.read (Elt Ideal) (layerOf V c) := by
  show (cfg0.win 6).cut (grid0.coords t) ((Gen.dat0 (F := Ideal) V c).after 6 t) = _
  rw [Gen.after0_6]
  unfold Gen.out0_6
  rw [View.canon_unit_zero hz]
  simp only [View.ld_unit_zero (S := S10000x64) hz, View.ld_unit_zero (S := S10000x1) hz,
    View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  show Gen.k0_pay1 (F := Ideal) (Gen.iblk0 V c 1 t) (Gen.iblk0 V c 0 t) (Gen.iblk0 V c 2 t) (Gen.iblk0 V c 3 t)
      (Gen.iblk0 V c 4 t) (Gen.iblk0 V c 5 t) (ix2 p q)
    = layerOf V c (((cfg0.win 6).blk t).view.emb (ix2 p q))
  rw [out_blk_emb t p q]
  refine (payload_apply (Gen.iblk0 V c 1 t) (Gen.iblk0 V c 0 t) (Gen.iblk0 V c 2 t) (Gen.iblk0 V c 3 t)
    (Gen.iblk0 V c 4 t) (Gen.iblk0 V c 5 t) p q).trans ?_
  show max (Cert.Sage.pre _ _ _ _ _ _ p q) Cert.Sage.zero = max (Cert.Sage.pre _ _ _ _ _ _ (rowOf t p) q) Cert.Sage.zero
  refine congrArg (max · Cert.Sage.zero) ?_
  unfold Cert.Sage.pre
  refine congrArg₂ (· + ·) (congrArg₂ (· + ·) (Finset.sum_congr rfl fun k _ => ?_) (Finset.sum_congr rfl fun k _ => ?_)) ?_
  · exact congrArg₂ (· * ·)
      (congrArg₂ Ideal.div (agg_blk V c t p k) (congrArg (max · Cert.Sage.one) (deg_blk V c t p))) (wl_blk V c t k q)
  · exact congrArg₂ (· * ·) (x_blk V c t p k) (wr_blk V c t k q)
  · exact bias_blk V c t q

/-! ## From the blocks to the array -/

/-- An index of the output array is in point `t`'s block iff each coordinate is in the block's range on its axis. -/
theorem mem_blk (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v20).slice (win0_6.rect t)).set ↔ _
  rw [View.set_slice_whole, Rect.mem_set_unit]
  exact Iff.rfl

/-- Every row `r` of the output lies in the block of point `r / 10000`, and every point writes its block back. -/
theorem cover (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  have hN : (i 0).val / 10000 < cfg0.N := by
    show (i 0).val / 10000 < grid0.N
    rw [Gen.N_0]; omega
  obtain ⟨-, -, -, -, -, -, -, -, -, -, -, -, e0, e1⟩ := idx_facts ⟨(i 0).val / 10000, hN⟩
  have e0' : win0_6.index ⟨(i 0).val / 10000, hN⟩ (0 : Fin 2) = (i 0).val / 10000 := e0
  refine ⟨⟨(i 0).val / 10000, hN⟩, Gen.flush0_6 _, ?_⟩
  rw [mem_blk]
  intro a
  match a with
  | ⟨0, _⟩ =>
    show win0_6.index ⟨(i 0).val / 10000, hN⟩ (0 : Fin 2) * 10000 ≤ (i 0).val
      ∧ (i 0).val < win0_6.index ⟨(i 0).val / 10000, hN⟩ (0 : Fin 2) * 10000 + 10000
    rw [e0']; omega
  | ⟨1, _⟩ =>
    show win0_6.index ⟨(i 0).val / 10000, hN⟩ (1 : Fin 2) * 64 ≤ (i 1).val
      ∧ (i 1).val < win0_6.index ⟨(i 0).val / 10000, hN⟩ (1 : Fin 2) * 64 + 64
    rw [e1]; omega

/-- THE OUTPUT ARRAY after the region: the first layer of the operand arrays as the region finds them, whatever
    those are. Every point writes back its block of that one function, and the ten blocks tile the array. -/
theorem final (c : Dev nD) :
    (Gen.dat0 (F := Ideal) V c).arrAt 6 cfg0.N
      = Cert.Sage.layerRelu (V c (Pipeline.arrRef spec0 0)) (fun n => V c (Pipeline.arrRef spec0 1) (ix2 n (0 : Fin 1)))
          (V c (Pipeline.arrRef spec0 2)) (V c (Pipeline.arrRef spec0 3)) (V c (Pipeline.arrRef spec0 4))
          (fun k => V c (Pipeline.arrRef spec0 5) (ix2 (0 : Fin 1) k)) :=
  (Gen.dat0 (F := Ideal) V c).arrAt_eq_of_cover 6 (layerOf V c) (fun t _ => flushed_eq V c t) cover

end Cert.KernelIdeal.Region0

end
-- ==== Proof.Region1.lean ====
/-
  Region 1 of the kernel, read as mathematics over the extended reals: what its ten grid points leave in the output
  array, for ANY contents `V` of the six arrays the region finds.

  Each point `t` loads rows `10000·t … 10000·t + 9999` of the summed neighbour features `agg` [100000, 64], of the
  in-degree column `deg` [100000, 1] and of the node features `x` [100000, 64], and the whole of `Wl`, `Wr` [64, 16] and
  of the bias row [1, 16]; it stores one [10000, 16] block.  Entry `(p, q)` of that block is

      z p q − top p − log ∑ⱼ exp (z p j − top p),     top p = max (−∞) (maxⱼ z p j),
      z p q = (∑ₖ (agg p k / max (deg p) 1) · Wl k q + ∑ₖ x p k · Wr k q) + b q,

  which is the specification's `logSoftmax (pre …)` of the block's own rows (`payload_apply`).  That formula reads row
  `p` of each cut block only, and row `p` of block `t` is row `10000·t + p` of the array, so the block a point writes
  back is block `t` of ONE whole-array function (`flushed_eq`); the ten blocks fill the array (`cover`), hence the array
  ends holding that function (`final`).
-/
import proofs.«129082_j68676527063150_1_alg».proof.Proof.Gen.KernelIdeal.Frame
import proofs.«129082_j68676527063150_1_alg».proof.Proof.SageSpec
import proofs.«129082_j68676527063150_1_alg».proof.Proof.LibKeepdims
import proofs.«129082_j68676527063150_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.ValueIdx Idealize.ShloMosaic.TcCoe Idealize.SL.Sem
open Idealize.ShloMosaic.Pipeline (Dat)
open Cert.KernelIdeal Cert.KernelIdeal.Facts₀ Cert.KernelIdeal.Facts

/-! ## The body's arithmetic at an index -/

/-- The row top of a block of logits, as the body builds it: the lane maximum from −∞, compared once more with
    −∞, kept as a column and spread along the 16 lanes.  At `(p, q)` it is the specification's row top of row `p`. -/
theorem top_apply (z : FVec Ideal S10000x16 .f32) (hr : S10000x16.Reduces [1] S10000)
    (hφ : FKind.Formats .f32) (hmax : (0xFF800000#32 : BitVec 32) = FKind.maximumf.neutral .f32 hφ)
    (hc : S10000.ShapeCasts S10000x1) (hb : S10000x1.Broadcasts S10000x16) (p : Fin 10000) (q : Fin 16) :
    broadcastTo S10000x16 (shapeCast S10000x1 (maximumf (broadcast S10000 (Scalar.ofBits (F := Ideal) .f32 0xFF800000#32))
        (multiReduction (F := Ideal) .maximumf [1] S10000 z 0xFF800000#32 hr hφ hmax)) hc) hb (ix2 p q)
      = Cert.Sage.rowTop (fun n c => z (ix2 n c)) p := by
  refine (Cert.LibKeepdims.broadcastTo_col_apply _ hb p q).trans ?_
  refine (Cert.LibKeepdims.shapeCast_col_apply _ hc p).trans ?_
  show max _ _ = max _ _
  exact congrArg (max _) (Cert.LibKeepdims.rowmax_apply z _ hr hφ hmax p)

/-- The log-softmax tail of the body on a block of logits `z`: the shifted logits `z − top` (used twice), the lane
    sum of their exponentials from a zero accumulator, its logarithm kept as a column and spread along the lanes.
    At `(p, q)` it is the specification's log-softmax of row `p`. -/
theorem softmax_apply (z : FVec Ideal S10000x16 .f32) (hr : S10000x16.Reduces [1] S10000)
    (hφ : FKind.Formats .f32) (hmax : (0xFF800000#32 : BitVec 32) = FKind.maximumf.neutral .f32 hφ)
    (hadd : (0x00000000#32 : BitVec 32) = FKind.add.neutral .f32 hφ)
    (hc : S10000.ShapeCasts S10000x1) (hb : S10000x1.Broadcasts S10000x16) (p : Fin 10000) (q : Fin 16) :
    subf (subf z (broadcastTo S10000x16 (shapeCast S10000x1 (maximumf (broadcast S10000 (Scalar.ofBits (F := Ideal) .f32 0xFF800000#32))
          (multiReduction (F := Ideal) .maximumf [1] S10000 z 0xFF800000#32 hr hφ hmax)) hc) hb))
        (broadcastTo S10000x16 (log (shapeCast S10000x1 (multiReduction (F := Ideal) .add [1] S10000
          (exp (subf z (broadcastTo S10000x16 (shapeCast S10000x1 (maximumf (broadcast S10000 (Scalar.ofBits (F := Ideal) .f32 0xFF800000#32))
            (multiReduction (F := Ideal) .maximumf [1] S10000 z 0xFF800000#32 hr hφ hmax)) hc) hb)))
          0x00000000#32 hr hφ hadd) hc)) hb) (ix2 p q)
      = Cert.Sage.logSoftmax (fun n c => z (ix2 n c)) p q := by
  have ht : ∀ k : Fin 16, broadcastTo S10000x16 (shapeCast S10000x1 (maximumf (broadcast S10000 (Scalar.ofBits (F := Ideal) .f32 0xFF800000#32))
        (multiReduction (F := Ideal) .maximumf [1] S10000 z 0xFF800000#32 hr hφ hmax)) hc) hb (ix2 p k)
      = Cert.Sage.rowTop (fun n c => z (ix2 n c)) p := fun k => top_apply z hr hφ hmax hc hb p k
  show (z (ix2 p q) - _) - _ = (z (ix2 p q) - _) - _
  refine congrArg₂ (· - ·) (congrArg (z (ix2 p q) - ·) (ht q)) ?_
  refine (Cert.LibKeepdims.broadcastTo_col_apply _ hb p q).trans ?_
  show Ideal.log _ = Ideal.log _
  refine congrArg Ideal.log ?_
  refine (Cert.LibKeepdims.shapeCast_col_apply _ hc p).trans ?_
  refine (Cert.LibKeepdims.rowsum_apply _ _ hr hφ hadd p).trans ?_
  refine Finset.sum_congr rfl fun k _ => ?_
  show Ideal.exp (z (ix2 p k) - _) = Ideal.exp (z (ix2 p k) - _)
  exact congrArg (fun t => Ideal.exp (z (ix2 p k) - t)) (ht k)

/-- The logits of a block, as the body builds them: the neighbour sums divided by `max deg 1` (the degree column
    spread along the 64 features) times `Wl`, plus the rows times `Wr` (two plain products into zero accumulators; the
    narrowing casts are the identity on extended reals), plus the bias row spread down the rows.  At `(p, q)` it is the
    specification's pre-activation of the block's row `p`. -/
theorem logits_apply (v0 : Vec Ideal S10000x1 .f32) (v4 v9 : Vec Ideal S10000x64 .f32) (v12 v14 : Vec Ideal S64x16 .f32)
    (v19 : Vec Ideal S1x16 .f32) (h1 : S10000x1.ShapeCasts S10000x1) (h64 : S10000x64.ShapeCasts S10000x64)
    (hb : S10000x1.Broadcasts S10000x64) (ht : FTy.bits .bf16 < FTy.bits .f32) (h16 : S1x16.ShapeCasts S1x16)
    (hbr : S1x16.Broadcasts S10000x16) (p : Fin 10000) (q : Fin 16) :
    addf (addf
        (matmul dot_S10000x64_S64x16_S10000x16_1_0_0_1_n_n none
          (truncf .bf16 (divf (shapeCast S10000x64 v4 h64)
            (broadcastTo S10000x64 (maximumf (shapeCast S10000x1 v0 h1) (broadcast S10000x1 (Scalar.ofBits (F := Ideal) .f32 0x3F800000#32))) hb)) ht)
          (truncf .bf16 v12 ht) (constant (F := Ideal) S10000x16 .f32 0x00000000#32))
        (matmul dot_S10000x64_S64x16_S10000x16_1_0_0_1_n_n none
          (truncf .bf16 (shapeCast S10000x64 v9 h64) ht) (truncf .bf16 v14 ht) (constant (F := Ideal) S10000x16 .f32 0x00000000#32)))
      (broadcastTo S10000x16 (shapeCast S1x16 (shapeCast S1x16 v19 h16) h16) hbr) (ix2 p q)
      = Cert.Sage.pre v4 (fun n => v0 (ix2 n (0 : Fin 1))) v9 v12 v14 (fun k => v19 (ix2 (0 : Fin 1) k)) p q := by
  show (_ + _) + _ = (_ + _) + _
  refine congrArg₂ (· + ·) (congrArg₂ (· + ·) ?_ ?_) ?_
  · refine (Cert.KernelBody.matmul_plain_zero_apply dot_S10000x64_S64x16_S10000x16_1_0_0_1_n_n_wf none _ _ p q).trans ?_
    refine Finset.sum_congr rfl fun k _ => ?_
    show Ideal.div (shapeCast S10000x64 v4 h64 (ix2 p k)) _ * v12 (ix2 k q) = Ideal.div (v4 (ix2 p k)) _ * v12 (ix2 k q)
    rw [shapeCast_self, Cert.LibKeepdims.broadcastTo_col_apply _ hb p k]
    show Ideal.div _ (max (shapeCast S10000x1 v0 h1 (ix2 p (0 : Fin 1))) _) * _ = _
    rw [shapeCast_self]
    rfl
  · refine (Cert.KernelBody.matmul_plain_zero_apply dot_S10000x64_S64x16_S10000x16_1_0_0_1_n_n_wf none _ _ p q).trans ?_
    refine Finset.sum_congr rfl fun k _ => ?_
    show shapeCast S10000x64 v9 h64 (ix2 p k) * v14 (ix2 k q) = v9 (ix2 p k) * v14 (ix2 k q)
    rw [shapeCast_self]
  · refine (Cert.KernelBody.broadcastTo_row_apply _ hbr p q).trans ?_
    rw [shapeCast_self, shapeCast_self]

/-- THE PAYLOAD AT AN INDEX: what the body stores at `(p, q)` of its output block is the specification's log-softmax
    of the pre-activations of the block's own rows, read off the blocks it loaded. -/
theorem payload_apply (v0 : Vec Ideal S10000x1 .f32) (v4 v9 : Vec Ideal S10000x64 .f32) (v12 v14 : Vec Ideal S64x16 .f32)
    (v19 : Vec Ideal S1x16 .f32) (p : Fin 10000) (q : Fin 16) :
    Gen.k1_pay1 (F := Ideal) v0 v4 v9 v12 v14 v19 (ix2 p q)
      = Cert.Sage.logSoftmax
          (Cert.Sage.pre v4 (fun n => v0 (ix2 n (0 : Fin 1))) v9 v12 v14 (fun k => v19 (ix2 (0 : Fin 1) k))) p q := by
  unfold Gen.k1_pay1
  refine (softmax_apply _ reduces_S10000x16_S10000 (.inl rfl) rfl rfl shapeCasts_S10000_S10000x1
    broadcasts_S10000x1_S10000x16 p q).trans ?_
  refine congrArg (fun z : Fin 10000 → Fin 16 → EReal => Cert.Sage.logSoftmax z p q) ?_
  funext n c
  exact logits_apply v0 v4 v9 v12 v14 v19 shapeCasts_S10000x1_S10000x1 shapeCasts_S10000x64_S10000x64
    broadcasts_S10000x1_S10000x64 bitsLt_bf16_f32 shapeCasts_S1x16_S1x16 broadcasts_S1x16_S10000x16 n c

/-! ## The specification reads one row -/

/-- The pre-activation of a node reads that node's row of neighbour sums, its degree and its own row only. -/
theorem pre_row {N N' D C : ℕ} (agg x : (⟨2, ![N, D]⟩ : Shape).Idx → EReal) (agg' x' : (⟨2, ![N', D]⟩ : Shape).Idx → EReal)
    (deg : Fin N → EReal) (deg' : Fin N' → EReal) (wl wr : (⟨2, ![D, C]⟩ : Shape).Idx → EReal) (b : Fin C → EReal)
    (n : Fin N) (n' : Fin N') (ha : ∀ k, agg (ix2 n k) = agg' (ix2 n' k)) (hd : deg n = deg' n')
    (hx : ∀ k, x (ix2 n k) = x' (ix2 n' k)) (c : Fin C) :
    Cert.Sage.pre agg deg x wl wr b n c = Cert.Sage.pre agg' deg' x' wl wr b n' c := by
  unfold Cert.Sage.pre
  simp only [ha, hd, hx]

/-- The log-softmax of a row reads that row only. -/
theorem logSoftmax_row {N N' C : ℕ} (z : Fin N → Fin C → EReal) (z' : Fin N' → Fin C → EReal) (n : Fin N) (n' : Fin N')
    (h : ∀ j, z n j = z' n' j) (c : Fin C) : Cert.Sage.logSoftmax z n c = Cert.Sage.logSoftmax z' n' c := by
  unfold Cert.Sage.logSoftmax Cert.Sage.rowTop
  simp only [h]

/-! ## One entry of an output block against the whole arrays -/

/-- Entry `y` of the block the body stores is entry `i` of the layer applied to the whole arrays, as soon as row `y 0`
    of each cut input block is row `i 0` of its array, the uncut blocks are their arrays, and the lanes agree. -/
theorem block_point (A X : S100000x64.Idx → EReal) (Dg : S100000x1.Idx → EReal) (wl wr : S64x16.Idx → EReal)
    (b : S1x16.Idx → EReal) (x0 x2 : Vec Ideal S10000x64 .f32) (x1 : Vec Ideal S10000x1 .f32)
    (x3 x4 : Vec Ideal S64x16 .f32) (x5 : Vec Ideal S1x16 .f32) (y : S10000x16.Idx) (i : S100000x16.Idx)
    (h0 : ∀ k : Fin 64, x0 (ix2 (y 0) k) = A (ix2 (i 0) k))
    (h1 : x1 (ix2 (y 0) (0 : Fin 1)) = Dg (ix2 (i 0) (0 : Fin 1)))
    (h2 : ∀ k : Fin 64, x2 (ix2 (y 0) k) = X (ix2 (i 0) k))
    (h3 : x3 = wl) (h4 : x4 = wr) (h5 : x5 = b) (hq : y 1 = i 1) :
    Gen.k1_pay1 (F := Ideal) x1 x0 x2 x3 x4 x5 y
      = Cert.Sage.layerLogSoftmax A (fun n => Dg (ix2 n (0 : Fin 1))) X wl wr (fun k => b (ix2 (0 : Fin 1) k)) i := by
  subst h3 h4 h5
  obtain ⟨p, q, rfl⟩ : ∃ (p : Fin 10000) (q : Fin 16), y = ix2 p q := ⟨y 0, y 1, eq_ix2 y⟩
  refine (payload_apply x1 x0 x2 x3 x4 x5 p q).trans ?_
  show Cert.Sage.logSoftmax _ p q = Cert.Sage.logSoftmax _ (i 0) (i 1)
  have hq' : q = i 1 := hq
  rw [← hq']
  exact logSoftmax_row _ _ p (i 0) (fun j => pre_row _ _ _ _ _ _ _ _ _ p (i 0) h0 h1 h2 j) q

/-! ## From blocks to the array -/

variable (V : (c : Dev nD) → (b : Ref sig .tc) → Buf (Elt Ideal) ((c : Thread nD τ).loc b))

/-- What region 1 leaves in its output array: the layer with the row-wise log-softmax, of the arrays the region finds. -/
abbrev result (c : Dev nD) : S100000x16.Idx → EReal :=
  Cert.Sage.layerLogSoftmax (V c (Pipeline.arrRef spec1 0) : S100000x64.Idx → EReal)
    (fun n => (V c (Pipeline.arrRef spec1 1) : S100000x1.Idx → EReal) (ix2 n (0 : Fin 1)))
    (V c (Pipeline.arrRef spec1 2) : S100000x64.Idx → EReal)
    (V c (Pipeline.arrRef spec1 3) : S64x16.Idx → EReal)
    (V c (Pipeline.arrRef spec1 4) : S64x16.Idx → EReal)
    (fun k => (V c (Pipeline.arrRef spec1 5) : S1x16.Idx → EReal) (ix2 (0 : Fin 1) k))

/-- The zero offsets of a whole-block access, spelt as a function. -/
theorem hz : (![0, 0] : Fin 2 → Nat) = fun _ => 0 := funext fun a => by fin_cases a <;> rfl

/-- The block index maps, decided over the ten grid points: the four cut windows (neighbour sums, degrees, features,
    output) sit at block row `t`, block column 0; the three uncut windows at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the layer applied to the whole arrays: the payload at an index, with
    row `y` of each cut input block read as row `10000·t + y` of its array (a block's coordinate is its block index
    times the block size plus the coordinate inside the block) and each uncut block read as its array. -/
theorem flushed_eq (c : Dev nD) (t : Fin cfg1.N) :
    (Gen.dat1 (F := Ideal) V c).flushed 6 t = ((cfg1.win 6).blk t).view.read (Elt Ideal) (result V c) := by
  show (cfg1.win 6).cut (grid1.coords t) ((Gen.dat1 (F := Ideal) V c).after 6 t) = _
  rw [Gen.after1_6]
  unfold Gen.out1_6
  rw [View.canon_unit_zero hz]
  simp only [View.ld_unit_zero (S := S10000x1) hz, View.ld_unit_zero (S := S10000x64) hz,
    View.ld_unit_zero (S := S64x16) hz, View.ld_unit_zero (S := S1x16) hz]
  funext j
  obtain ⟨e00, e01, e10, e11, e20, e21, e30, e31, e40, e41, e50, e51, e60, e61⟩ := index_facts t
  refine block_point (V c (Pipeline.arrRef spec1 0)) (V c (Pipeline.arrRef spec1 2)) (V c (Pipeline.arrRef spec1 1))
    (V c (Pipeline.arrRef spec1 3)) (V c (Pipeline.arrRef spec1 4)) (V c (Pipeline.arrRef spec1 5)) _ _ _ _ _ _ j
    (((cfg1.win 6).blk t).view.emb j) ?_ ?_ ?_ ?_ ?_ ?_ ?_
  · intro k
    show V c (Pipeline.arrRef spec1 0) (((cfg1.win 0).blk t).view.emb (ix2 (j 0) k)) = _
    refine congrArg _ (funext fun a => Fin.ext ?_)
    match a with
    | ⟨0, _⟩ => show win1_0.index t (0 : Fin 2) * 10000 + 1 * (j 0).val = win1_6.index t (0 : Fin 2) * 10000 + 1 * (j 0).val; omega
    | ⟨1, _⟩ => show win1_0.index t (1 : Fin 2) * 64 + 1 * k.val = k.val; omega
  · show V c (Pipeline.arrRef spec1 1) (((cfg1.win 1).blk t).view.emb (ix2 (j 0) (0 : Fin 1))) = _
    refine congrArg _ (funext fun a => Fin.ext ?_)
    match a with
    | ⟨0, _⟩ => show win1_1.index t (0 : Fin 2) * 10000 + 1 * (j 0).val = win1_6.index t (0 : Fin 2) * 10000 + 1 * (j 0).val; omega
    | ⟨1, _⟩ => show win1_1.index t (1 : Fin 2) * 1 + 1 * 0 = 0; omega
  · intro k
    show V c (Pipeline.arrRef spec1 2) (((cfg1.win 2).blk t).view.emb (ix2 (j 0) k)) = _
    refine congrArg _ (funext fun a => Fin.ext ?_)
    match a with
    | ⟨0, _⟩ => show win1_2.index t (0 : Fin 2) * 10000 + 1 * (j 0).val = win1_6.index t (0 : Fin 2) * 10000 + 1 * (j 0).val; omega
    | ⟨1, _⟩ => show win1_2.index t (1 : Fin 2) * 64 + 1 * k.val = k.val; omega
  · funext y
    show V c (Pipeline.arrRef spec1 3) (((cfg1.win 3).blk t).view.emb y) = V c (Pipeline.arrRef spec1 3) y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 16 + 1 * (y 1).val = (y 1).val; omega
  · funext y
    show V c (Pipeline.arrRef spec1 4) (((cfg1.win 4).blk t).view.emb y) = V c (Pipeline.arrRef spec1 4) y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 16 + 1 * (y 1).val = (y 1).val; omega
  · funext y
    show V c (Pipeline.arrRef spec1 5) (((cfg1.win 5).blk t).view.emb y) = V c (Pipeline.arrRef spec1 5) y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 16 + 1 * (y 1).val = (y 1).val; omega
  · apply Fin.ext
    show (j 1).val = win1_6.index t (1 : Fin 2) * 16 + 1 * (j 1).val
    omega

/-! ## The cover: the ten blocks of 10000 rows fill the array -/

/-- An index of the array is in point `t`'s block iff each coordinate is in the block's range on its axis. -/
theorem mem_blk (t : Fin cfg1.N) (i : S100000x16.Idx) :
    i ∈ ((cfg1.win 6).blk t).view.set
      ↔ ∀ a : Fin 2, win1_6.index t a * S10000x16.size a ≤ (i a).val ∧ (i a).val < win1_6.index t a * S10000x16.size a + S10000x16.size a := by
  show i ∈ ((View.whole main_v32).slice (win1_6.rect t)).set ↔ _
  rw [View.set_slice_whole, Rect.mem_set_unit]
  exact Iff.rfl

/-- Row `r` of the output lies in the block of point `r / 10000`, which is written back. -/
theorem cover (i : S100000x16.Idx) :
    ∃ t : Fin cfg1.N, (cfg1.win 6).flush t = true ∧ i ∈ ((cfg1.win 6).blk t).view.set := by
  have hi0 : (i 0).val < 100000 := (i 0).isLt
  have hi1 : (i 1).val < 16 := (i 1).isLt
  have hN : cfg1.N = 10 := Gen.N_1
  have ht : (i 0).val / 10000 < cfg1.N := by rw [hN]; omega
  obtain ⟨-, -, -, -, -, -, -, -, -, -, -, -, e60, e61⟩ := index_facts ⟨(i 0).val / 10000, ht⟩
  have e60' : win1_6.index ⟨(i 0).val / 10000, ht⟩ (0 : Fin 2) = (i 0).val / 10000 := e60
  refine ⟨⟨(i 0).val / 10000, ht⟩, Gen.flush1_6 _, ?_⟩
  rw [mem_blk]
  intro a
  match a with
  | ⟨0, _⟩ =>
    show win1_6.index ⟨(i 0).val / 10000, ht⟩ (0 : Fin 2) * 10000 ≤ (i 0).val
      ∧ (i 0).val < win1_6.index ⟨(i 0).val / 10000, ht⟩ (0 : Fin 2) * 10000 + 10000
    omega
  | ⟨1, _⟩ =>
    show win1_6.index ⟨(i 0).val / 10000, ht⟩ (1 : Fin 2) * 16 ≤ (i 1).val
      ∧ (i 1).val < win1_6.index ⟨(i 0).val / 10000, ht⟩ (1 : Fin 2) * 16 + 16
    omega

/-! ## The array after the region -/

/-- REGION 1's OUTPUT ARRAY after its ten points: the SAGE layer with the row-wise log-softmax of the six arrays the
    region finds (neighbour sums, degree column, node features, the two weight matrices, the bias row). -/
theorem final (c : Dev nD) :
    (Gen.dat1 (F := Ideal) V c).arrAt 6 cfg1.N
      = Cert.Sage.layerLogSoftmax (V c (Pipeline.arrRef spec1 0) : S100000x64.Idx → EReal)
          (fun n => (V c (Pipeline.arrRef spec1 1) : S100000x1.Idx → EReal) (ix2 n (0 : Fin 1)))
          (V c (Pipeline.arrRef spec1 2) : S100000x64.Idx → EReal)
          (V c (Pipeline.arrRef spec1 3) : S64x16.Idx → EReal)
          (V c (Pipeline.arrRef spec1 4) : S64x16.Idx → EReal)
          (fun k => (V c (Pipeline.arrRef spec1 5) : S1x16.Idx → EReal) (ix2 (0 : Fin 1) k)) :=
  (Gen.dat1 (F := Ideal) V c).arrAt_eq_of_cover 6 (result V c) (fun t _ => flushed_eq V c t) cover

end Cert.KernelIdeal.Region1

end
-- ==== Proof.SageCongr.lean ====
/-
  The two layer functions of the specification respect equality of their arguments (used to replace each array by
  what it holds, one argument at a time).
-/
import proofs.«129082_j68676527063150_1_alg».proof.Proof.SageSpec

noncomputable section

namespace Cert.Sage

open Idealize.ShloMosaic Idealize.ShloMosaic.ValueIdx

variable {N D C : ℕ}

/-- The first layer's function respects equality of each of its six arguments. -/
theorem layerRelu_congr {agg agg' : (⟨2, ![N, D]⟩ : Shape).Idx → EReal} {deg deg' : Fin N → EReal}
    {x x' : (⟨2, ![N, D]⟩ : Shape).Idx → EReal} {wl wl' wr wr' : (⟨2, ![D, C]⟩ : Shape).Idx → EReal} {b b' : Fin C → EReal}
    (h1 : agg = agg') (h2 : deg = deg') (h3 : x = x') (h4 : wl = wl') (h5 : wr = wr') (h6 : b = b') :
    layerRelu agg deg x wl wr b = layerRelu agg' deg' x' wl' wr' b' := by
  subst h1 h2 h3 h4 h5 h6; rfl

/-- The second layer's function respects equality of each of its six arguments. -/
theorem layerLogSoftmax_congr {agg agg' : (⟨2, ![N, D]⟩ : Shape).Idx → EReal} {deg deg' : Fin N → EReal}
    {x x' : (⟨2, ![N, D]⟩ : Shape).Idx → EReal} {wl wl' wr wr' : (⟨2, ![D, C]⟩ : Shape).Idx → EReal} {b b' : Fin C → EReal}
    (h1 : agg = agg') (h2 : deg = deg') (h3 : x = x') (h4 : wl = wl') (h5 : wr = wr') (h6 : b = b') :
    layerLogSoftmax agg deg x wl wr b = layerLogSoftmax agg' deg' x' wl' wr' b' := by
  subst h1 h2 h3 h4 h5 h6; rfl

end Cert.Sage

end
-- ==== Proof.RefTerm.lean ====
/-
  The reference program's result, written as a composition of named stages of its own host operations.

  `srcCol` / `dstCol`: the two rows of the edge list as index columns [E, 1] (a negative source wrapped by adding N,
  as the program does). `aggOf h ei`: the rows of `h` gathered along the edge sources and summed onto the edge
  targets, from zero. `degOf ei`: ones summed onto the edge targets, from zero (the in-degree). `dense1` / `dense2`:
  one layer's dense part — neighbour sum divided by `max deg 1` into `Wl`, the node's row into `Wr`, the bias —
  followed by `max · 0`, respectively by the row-wise log-softmax. `result` chains the two layers.
-/
import proofs.«129082_j68676527063150_1_alg».proof.ReferenceIdeal

noncomputable section

namespace Cert.ReferenceIdeal.Stages

open Cert.ReferenceIdeal Idealize.ShloMosaic Idealize.ShloMosaic.TcCoe Idealize.SL.Sem

variable {F : FTy → Type} [FloatOps F] [Facts]
open Facts₀ Facts

/-- The edge targets (row 1 of the edge list) as an index column [E, 1]. -/
def dstCol (ei : (⟨S2x1600000, .i32⟩ : BufTy).Contents (Elt F)) : (⟨S1600000x1, .i32⟩ : BufTy).Contents (Elt F) :=
  broadcastInDim S1600000x1 ![0] bcast_S1600000_S1600000x1_0
    (shapeCast _ (extractStridedSlice S1x1600000 ![1, 0] ei slices_S2x1600000_S1x1600000_1_0) shapeCasts_S1x1600000_S1600000)

/-- The edge sources (row 0 of the edge list). -/
def srcVec (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The edge sources as an index column [E, 1], a negative one wrapped by adding the number of nodes. -/
def srcCol (ei : (⟨S2x1600000, .i32⟩ : BufTy).Contents (Elt F)) : (⟨S1600000x1, .i32⟩ : BufTy).Contents (Elt F) :=
  broadcastInDim S1600000x1 ![0] bcast_S1600000_S1600000x1_0
    (select (cmpi .slt (srcVec ei) (broadcastInDim S1600000 ![] bcast_S_S1600000 (constantI S_ 32 0#32)))
      (addi (srcVec ei) (broadcastInDim S1600000 ![] bcast_S_S1600000 (constantI S_ 32 100000#32))) (srcVec ei))

/-- Neighbour sums: row `src e` of `h` added onto row `dst e`, over all edges `e`, from zero. -/
def aggOf (h : (⟨S100000x64, .f32⟩ : BufTy).Contents (Elt F)) (ei : (⟨S2x1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (dstCol ei)
    (Host.gather gather_S100000x64_S1600000x1_S1600000x64_1_0_n_n_0_1_164 h (srcCol ei))

/-- In-degrees: a one added onto entry `dst e` for every edge `e`, from zero. -/
def degOf (ei : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32)) (dstCol ei)
    (broadcastInDim S1600000 ![] bcast_S_S1600000 (constant S_ .f32 0x3F800000#32))

/-- The neighbour sums divided row by row by `max deg 1`. -/
def meanOf (agg : (⟨S100000x64, .f32⟩ : BufTy).Contents (Elt F)) (deg : (⟨S100000, .f32⟩ : BufTy).Contents (Elt F)) :
    (⟨S100000x64, .f32⟩ : BufTy).Contents (Elt F) :=
  Host.divf agg (broadcastInDim S100000x64 ![0, 1] bcast_S100000x1_S100000x64_0_1
    (broadcastInDim S100000x1 ![0] bcast_S100000_S100000x1_0
      (maximumf deg (broadcastInDim S100000 ![] bcast_S_S100000 (constant S_ .f32 0x3F800000#32)))))

/-- The first layer's dense part with its `max · 0`. -/
def dense1 (agg : (⟨S100000x64, .f32⟩ : BufTy).Contents (Elt F)) (deg : (⟨S100000, .f32⟩ : BufTy).Contents (Elt F))
    (x : (⟨S100000x64, .f32⟩ : BufTy).Contents (Elt F)) (wl wr : (⟨S64x64, .f32⟩ : BufTy).Contents (Elt F))
    (b : (⟨S64, .f32⟩ : BufTy).Contents (Elt F)) : (⟨S100000x64, .f32⟩ : BufTy).Contents (Elt F) :=
  maximumf
    (addf (addf (Host.dotGeneral dot_S100000x64_S64x64_S100000x64_1_0_0_1_n_n none (meanOf agg deg) wl)
        (Host.dotGeneral dot_S100000x64_S64x64_S100000x64_1_0_0_1_n_n none x wr))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second layer's dense part before its activation. -/
def logits (agg : (⟨S100000x64, .f32⟩ : BufTy).Contents (Elt F)) (deg : (⟨S100000, .f32⟩ : BufTy).Contents (Elt F))
    (h : (⟨S100000x64, .f32⟩ : BufTy).Contents (Elt F)) (wl wr : (⟨S64x16, .f32⟩ : BufTy).Contents (Elt F))
    (b : (⟨S16, .f32⟩ : BufTy).Contents (Elt F)) : (⟨S100000x16, .f32⟩ : BufTy).Contents (Elt F) :=
  addf (addf (Host.dotGeneral dot_S100000x64_S64x16_S100000x16_1_0_0_1_n_n none (meanOf agg deg) wl)
      (Host.dotGeneral dot_S100000x64_S64x16_S100000x16_1_0_0_1_n_n none h wr))
    (broadcastInDim S100000x16 ![0, 1] bcast_S1x16_S100000x16_0_1 (broadcastInDim S1x16 ![1] bcast_S16_S1x16_1 b))

/-- The logits shifted row by row by the row's largest entry (taken from −∞ and compared once more with −∞). -/
def shifted (z : (⟨S100000x16, .f32⟩ : BufTy).Contents (Elt F)) : (⟨S100000x16, .f32⟩ : BufTy).Contents (Elt F) :=
  subf z (broadcastInDim S100000x16 ![0, 1] bcast_S100000x1_S100000x16_0_1
    (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x16_S100000_d1 h_S_))))

/-- Row-wise log-softmax of the logits: the shifted logits minus the log of the row's sum of their exponentials. -/
def logSoftmaxOf (z : (⟨S100000x16, .f32⟩ : BufTy).Contents (Elt F)) : (⟨S100000x16, .f32⟩ : BufTy).Contents (Elt F) :=
  subf (shifted z) (broadcastInDim S100000x16 ![0, 1] bcast_S100000x1_S100000x16_0_1
    (Host.log (broadcastInDim S100000x1 ![0] bcast_S100000_S100000x1_0
      (Host.reduceAdd (Host.exp (shifted z)) (constant S_ .f32 0x00000000#32) reducesTo_S100000x16_S100000_d1 h_S_))))

/-- The second layer's dense part with its log-softmax. -/
def dense2 (agg : (⟨S100000x64, .f32⟩ : BufTy).Contents (Elt F)) (deg : (⟨S100000, .f32⟩ : BufTy).Contents (Elt F))
    (h : (⟨S100000x64, .f32⟩ : BufTy).Contents (Elt F)) (wl wr : (⟨S64x16, .f32⟩ : BufTy).Contents (Elt F))
    (b : (⟨S16, .f32⟩ : BufTy).Contents (Elt F)) : (⟨S100000x16, .f32⟩ : BufTy).Contents (Elt F) :=
  logSoftmaxOf (logits agg deg h wl wr b)

/-- The hidden features: the first layer applied to the node features. -/
def hidden (x : (⟨S100000x64, .f32⟩ : BufTy).Contents (Elt F)) (ei : (⟨S2x1600000, .i32⟩ : BufTy).Contents (Elt F))
    (w1l w1r : (⟨S64x64, .f32⟩ : BufTy).Contents (Elt F)) (b1 : (⟨S64, .f32⟩ : BufTy).Contents (Elt F)) :
    (⟨S100000x64, .f32⟩ : BufTy).Contents (Elt F) :=
  dense1 (aggOf x ei) (degOf ei) x w1l w1r b1

/-- The whole reference: the second layer applied to the hidden features. -/
def result (x : (⟨S100000x64, .f32⟩ : BufTy).Contents (Elt F)) (ei : (⟨S2x1600000, .i32⟩ : BufTy).Contents (Elt F))
    (w1l w1r : (⟨S64x64, .f32⟩ : BufTy).Contents (Elt F)) (b1 : (⟨S64, .f32⟩ : BufTy).Contents (Elt F))
    (w2l w2r : (⟨S64x16, .f32⟩ : BufTy).Contents (Elt F)) (b2 : (⟨S16, .f32⟩ : BufTy).Contents (Elt F)) :
    (⟨S100000x16, .f32⟩ : BufTy).Contents (Elt F) :=
  dense2 (aggOf (hidden x ei w1l w1r b1) ei) (degOf ei) (hidden x ei w1l w1r b1) w2l w2r b2

end Cert.ReferenceIdeal.Stages

end
-- ==== Proof.KernelGlue.lean ====
/-
  The host operations around the kernel's two calls, as named stages, and their agreement with the reference's.

  Before the first call @main computes, from the edge list alone, the in-degrees (ones scatter-added onto the edge
  targets) reshaped to a column, and from the node features the neighbour sums (rows gathered along the edge sources,
  scatter-added onto the edge targets); it reshapes the first bias to a row. Between the calls it computes the
  neighbour sums of the first call's output with the same edge columns, and reshapes the second bias. These are
  the same host operations, over the same shapes, that the reference applies: the stages below are the reference's
  stages `aggOf` and `degOf`, definitionally.
-/
import proofs.«129082_j68676527063150_1_alg».proof.KernelIdeal
import proofs.«129082_j68676527063150_1_alg».proof.Proof.RefTerm

noncomputable section

namespace Cert.KernelIdeal.Glue

open Cert.KernelIdeal Idealize.ShloMosaic Idealize.ShloMosaic.TcCoe Idealize.SL.Sem

variable {F : FTy → Type} [FloatOps F] [Facts]
open Facts₀ Facts

/-- The edge targets (row 1 of the edge list) as an index column [E, 1]. -/
def dstCol (ei : (⟨S2x1600000, .i32⟩ : BufTy).Contents (Elt F)) : (⟨S1600000x1, .i32⟩ : BufTy).Contents (Elt F) :=
  broadcastInDim S1600000x1 ![0] bcast_S1600000_S1600000x1_0
    (shapeCast _ (extractStridedSlice S1x1600000 ![1, 0] ei slices_S2x1600000_S1x1600000_1_0) shapeCasts_S1x1600000_S1600000)

/-- The edge sources (row 0 of the edge list). -/
def srcVec (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The edge sources as an index column [E, 1], a negative one wrapped by adding the number of nodes. -/
def srcCol (ei : (⟨S2x1600000, .i32⟩ : BufTy).Contents (Elt F)) : (⟨S1600000x1, .i32⟩ : BufTy).Contents (Elt F) :=
  broadcastInDim S1600000x1 ![0] bcast_S1600000_S1600000x1_0
    (select (cmpi .slt (srcVec ei) (broadcastInDim S1600000 ![] bcast_S_S1600000 (constantI S_ 32 0#32)))
      (addi (srcVec ei) (broadcastInDim S1600000 ![] bcast_S_S1600000 (constantI S_ 32 100000#32))) (srcVec ei))

/-- Neighbour sums: row `src e` of `h` added onto row `dst e`, over all edges `e`, from zero. -/
def aggOf (h : (⟨S100000x64, .f32⟩ : BufTy).Contents (Elt F)) (ei : (⟨S2x1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (dstCol ei)
    (Host.gather gather_S100000x64_S1600000x1_S1600000x64_1_0_n_n_0_1_164 h (srcCol ei))

/-- In-degrees: a one added onto entry `dst e` for every edge `e`, from zero. -/
def degOf (ei : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32)) (dstCol ei)
    (broadcastInDim S1600000 ![] bcast_S_S1600000 (constant S_ .f32 0x3F800000#32))

section Agree

variable [Cert.ReferenceIdeal.Facts]

/-- The kernel's neighbour-sum stage is the reference's: the same operations over the same shapes. -/
theorem aggOf_eq (h : (⟨S100000x64, .f32⟩ : BufTy).Contents (Elt F)) (ei : (⟨S2x1600000, .i32⟩ : BufTy).Contents (Elt F)) :
    aggOf h ei = Cert.ReferenceIdeal.Stages.aggOf h ei := rfl

/-- The kernel's in-degree stage is the reference's. -/
theorem degOf_eq (ei : (⟨S2x1600000, .i32⟩ : BufTy).Contents (Elt F)) :
    degOf ei = Cert.ReferenceIdeal.Stages.degOf ei := rfl

end Agree

end Cert.KernelIdeal.Glue

end
-- ==== Proof.KernelEntry.lean ====
/-
  What the two calls find in their window arrays when they are entered, in terms of the arguments.

  First call: the neighbour sums of the node features, the in-degree column, the node features, the two weight
  matrices as launched, the first bias as a row. Second call: the neighbour sums of the FIRST call's output (with the
  same edge columns, computed once before the first call and untouched by it), the same in-degree column (an input of
  the first call, so left as it was), the first call's output, the second pair of weight matrices, the second bias as
  a row. No host operation and no call writes an argument.
-/
import proofs.«129082_j68676527063150_1_alg».proof.Proof.Gen.KernelIdeal.Frame
import proofs.«129082_j68676527063150_1_alg».proof.Proof.KernelGlue
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-! ## Entering the first call -/

theorem W1_agg (c : Dev nD) : W1 m ρ c (Proc.devRef .tc main_v18) = Glue.aggOf (m ((c : Thread nD τ).loc main_arg0)) (m ((c : Thread nD τ).loc main_arg1)) := by
  show StableHlo.after hostOps0 (W0 m ρ c) (Proc.devRef .tc main_v18) = _
  after_results_simp
  rfl

theorem W1_deg (c : Dev nD) : W1 m ρ c (Proc.devRef .tc main_v8)
    = shapeCast S100000x1 (Glue.degOf (m ((c : Thread nD τ).loc main_arg1))) shapeCasts_S100000_S100000x1 := by
  show StableHlo.after hostOps0 (W0 m ρ c) (Proc.devRef .tc main_v8) = _
  after_results_simp
  rfl

theorem W1_bias (c : Dev nD) : W1 m ρ c (Proc.devRef .tc main_v19) = shapeCast S1x64 (m ((c : Thread nD τ).loc main_arg4)) shapeCasts_S64_S1x64 := by
  show StableHlo.after hostOps0 (W0 m ρ c) (Proc.devRef .tc main_v19) = _
  after_results_simp
  rfl

theorem W1_src (c : Dev nD) : W1 m ρ c (Proc.devRef .tc main_v1) = Glue.srcVec (m ((c : Thread nD τ).loc main_arg1)) := by
  show StableHlo.after hostOps0 (W0 m ρ c) (Proc.devRef .tc main_v1) = _
  after_results_simp
  rfl

theorem W1_dst (c : Dev nD) : W1 m ρ c (Proc.devRef .tc main_v3)
    = shapeCast S1600000 (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results_simp
  rfl

theorem W1_arg0 (c : Dev nD) : W1 m ρ c (Proc.devRef .tc main_arg0) = (m ((c : Thread nD τ).loc main_arg0)) := by
  show StableHlo.after hostOps0 (W0 m ρ c) (Proc.devRef .tc main_arg0) = _
  after_results_simp

theorem W1_arg1 (c : Dev nD) : W1 m ρ c (Proc.devRef .tc main_arg1) = (m ((c : Thread nD τ).loc main_arg1)) := by
  show StableHlo.after hostOps0 (W0 m ρ c) (Proc.devRef .tc main_arg1) = _
  after_results_simp

theorem W1_arg2 (c : Dev nD) : W1 m ρ c (Proc.devRef .tc main_arg2) = (m ((c : Thread nD τ).loc main_arg2)) := by
  show StableHlo.after hostOps0 (W0 m ρ c) (Proc.devRef .tc main_arg2) = _
  after_results_simp

theorem W1_arg3 (c : Dev nD) : W1 m ρ c (Proc.devRef .tc main_arg3) = (m ((c : Thread nD τ).loc main_arg3)) := by
  show StableHlo.after hostOps0 (W0 m ρ c) (Proc.devRef .tc main_arg3) = _
  after_results_simp

theorem W1_arg4 (c : Dev nD) : W1 m ρ c (Proc.devRef .tc main_arg4) = (m ((c : Thread nD τ).loc main_arg4)) := by
  show StableHlo.after hostOps0 (W0 m ρ c) (Proc.devRef .tc main_arg4) = _
  after_results_simp

theorem W1_arg5 (c : Dev nD) : W1 m ρ c (Proc.devRef .tc main_arg5) = (m ((c : Thread nD τ).loc main_arg5)) := by
  show StableHlo.after hostOps0 (W0 m ρ c) (Proc.devRef .tc main_arg5) = _
  after_results_simp

theorem W1_arg6 (c : Dev nD) : W1 m ρ c (Proc.devRef .tc main_arg6) = (m ((c : Thread nD τ).loc main_arg6)) := by
  show StableHlo.after hostOps0 (W0 m ρ c) (Proc.devRef .tc main_arg6) = _
  after_results_simp

theorem W1_arg7 (c : Dev nD) : W1 m ρ c (Proc.devRef .tc main_arg7) = (m ((c : Thread nD τ).loc main_arg7)) := by
  show StableHlo.after hostOps0 (W0 m ρ c) (Proc.devRef .tc main_arg7) = _
  after_results_simp

/-! ## Leaving the first call: its output array holds what its write-backs leave; everything else is as entered -/

theorem W2_out (c : Dev nD) : W2 m ρ c (Proc.devRef .tc main_v20) = (dat0 (V1 m ρ) c).arrAt 6 cfg0.N :=
  W2_arr m ρ c 6

theorem W2_deg (c : Dev nD) : W2 m ρ c (Proc.devRef .tc main_v8) = W1 m ρ c (Proc.devRef .tc main_v8) :=
  (W2_arr m ρ c 1).trans (((dat0 (V1 m ρ) c).arrAt_in 1 rfl _).trans (A_eq0 (V1 m ρ) c 1))

theorem W2_src (c : Dev nD) : W2 m ρ c (Proc.devRef .tc main_v1) = Glue.srcVec (m ((c : Thread nD τ).loc main_arg1)) :=
  (W2_of_ne m ρ c main_v1 (by decide)).trans (W1_src m ρ c)

theorem W2_dst (c : Dev nD) : W2 m ρ c (Proc.devRef .tc main_v3)
    = shapeCast S1600000 (extractStridedSlice S1x1600000 ![1, 0] (m ((c : Thread nD τ).loc main_arg1)) slices_S2x1600000_S1x1600000_1_0) shapeCasts_S1x1600000_S1600000 :=
  (W2_of_ne m ρ c main_v3 (by decide)).trans (W1_dst m ρ c)

theorem W2_arg5 (c : Dev nD) : W2 m ρ c (Proc.devRef .tc main_arg5) = (m ((c : Thread nD τ).loc main_arg5)) :=
  (W2_of_ne m ρ c main_arg5 (by decide)).trans (W1_arg5 m ρ c)

theorem W2_arg6 (c : Dev nD) : W2 m ρ c (Proc.devRef .tc main_arg6) = (m ((c : Thread nD τ).loc main_arg6)) :=
  (W2_of_ne m ρ c main_arg6 (by decide)).trans (W1_arg6 m ρ c)

theorem W2_arg7 (c : Dev nD) : W2 m ρ c (Proc.devRef .tc main_arg7) = (m ((c : Thread nD τ).loc main_arg7)) :=
  (W2_of_ne m ρ c main_arg7 (by decide)).trans (W1_arg7 m ρ c)

/-! ## Entering the second call -/

theorem W3_agg (c : Dev nD) : W3 m ρ c (Proc.devRef .tc main_v30)
    = Glue.aggOf (W2 m ρ c (Proc.devRef .tc main_v20)) (m ((c : Thread nD τ).loc main_arg1)) := by
  show StableHlo.after hostOps1 (W2 m ρ c) (Proc.devRef .tc main_v30) = _
  after_results_simp
  rw [W2_src m ρ c, W2_dst m ρ c]
  rfl

theorem W3_deg (c : Dev nD) : W3 m ρ c (Proc.devRef .tc main_v8)
    = shapeCast S100000x1 (Glue.degOf (m ((c : Thread nD τ).loc main_arg1))) shapeCasts_S100000_S100000x1 := by
  refine Eq.trans ?_ ((W2_deg m ρ c).trans (W1_deg m ρ c))
  show StableHlo.after hostOps1 (W2 m ρ c) (Proc.devRef .tc main_v8) = _
  after_results_simp

theorem W3_out (c : Dev nD) : W3 m ρ c (Proc.devRef .tc main_v20) = W2 m ρ c (Proc.devRef .tc main_v20) := by
  show StableHlo.after hostOps1 (W2 m ρ c) (Proc.devRef .tc main_v20) = _
  after_results_simp

theorem W3_bias (c : Dev nD) : W3 m ρ c (Proc.devRef .tc main_v31) = shapeCast S1x16 (m ((c : Thread nD τ).loc main_arg7)) shapeCasts_S16_S1x16 := by
  show StableHlo.after hostOps1 (W2 m ρ c) (Proc.devRef .tc main_v31) = _
  after_results_simp
  rw [W2_arg7 m ρ c]
  rfl

theorem W3_arg5 (c : Dev nD) : W3 m ρ c (Proc.devRef .tc main_arg5) = (m ((c : Thread nD τ).loc main_arg5)) := by
  refine Eq.trans ?_ (W2_arg5 m ρ c)
  show StableHlo.after hostOps1 (W2 m ρ c) (Proc.devRef .tc main_arg5) = _
  after_results_simp

theorem W3_arg6 (c : Dev nD) : W3 m ρ c (Proc.devRef .tc main_arg6) = (m ((c : Thread nD τ).loc main_arg6)) := by
  refine Eq.trans ?_ (W2_arg6 m ρ c)
  show StableHlo.after hostOps1 (W2 m ρ c) (Proc.devRef .tc main_arg6) = _
  after_results_simp

end Cert.KernelIdeal.Entry

end
-- ==== Proof.KernelValue.lean ====
/-
  What the kernel program leaves in its result buffer, as the specification's two layers of the arguments.

  The first call's output array is, block by block, the first layer function of the arrays the call finds on entry;
  those are the neighbour sums and in-degrees of the arguments, the node features, the first weights, the first bias.
  The second call's output array is the second layer function of the arrays IT finds: the neighbour sums of the first
  call's output, the same in-degrees, that output, the second weights, the second bias. The in-degree column [N, 1]
  and the bias rows [1, C] are read at an index as the vectors they were reshaped from.
-/
import proofs.«129082_j68676527063150_1_alg».proof.Proof.Gen.KernelIdeal.Frame
import proofs.«129082_j68676527063150_1_alg».proof.Proof.Region0
import proofs.«129082_j68676527063150_1_alg».proof.Proof.Region1
import proofs.«129082_j68676527063150_1_alg».proof.Proof.SageCongr
import proofs.«129082_j68676527063150_1_alg».proof.Proof.KernelEntry
import proofs.«129082_j68676527063150_1_alg».proof.Proof.KernelRun
import proofs.«129082_j68676527063150_1_alg».proof.Proof.SageSpec
import proofs.«129082_j68676527063150_1_alg».proof.Proof.LibKeepdims
import proofs.«129082_j68676527063150_1_alg».proof.Proof.LibRowOps

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The hidden features the first call leaves: the first layer of the specification applied to the arguments. -/
def hiddenSpec (c : Dev nD) : (⟨2, ![100000, 64]⟩ : Shape).Idx → EReal :=
  Cert.Sage.layerRelu (Glue.aggOf (m ((c : Thread nD τ).loc main_arg0)) (m ((c : Thread nD τ).loc main_arg1))) (fun n => Glue.degOf (m ((c : Thread nD τ).loc main_arg1)) (ix1 n)) (m ((c : Thread nD τ).loc main_arg0)) (m ((c : Thread nD τ).loc main_arg2)) (m ((c : Thread nD τ).loc main_arg3))
    (fun k => (m ((c : Thread nD τ).loc main_arg4)) (ix1 k))

/-- The result the second call leaves: the second layer applied to the hidden features. -/
def resultSpec (c : Dev nD) : (⟨2, ![100000, 16]⟩ : Shape).Idx → EReal :=
  Cert.Sage.layerLogSoftmax (Glue.aggOf (hiddenSpec m c) (m ((c : Thread nD τ).loc main_arg1))) (fun n => Glue.degOf (m ((c : Thread nD τ).loc main_arg1)) (ix1 n)) (hiddenSpec m c) (m ((c : Thread nD τ).loc main_arg5)) (m ((c : Thread nD τ).loc main_arg6))
    (fun k => (m ((c : Thread nD τ).loc main_arg7)) (ix1 k))

/-- After the first call its output array holds the first layer of the arguments: the region's blockwise result at
    the entry contents, each entry array read back to the arguments (the degree column and the bias row at an index). -/
theorem hidden_eq (c : Dev nD) : W2 m ρ c (Proc.devRef .tc main_v20) = hiddenSpec m c :=
  (Entry.W2_out m ρ c).trans <| (Region0.final (V1 m ρ) c).trans <|
    Cert.Sage.layerRelu_congr (Entry.W1_agg m ρ c)
      (funext fun n => (congrFun (Entry.W1_deg m ρ c) _).trans (Cert.LibKeepdims.shapeCast_col_apply _ _ n))
      (Entry.W1_arg0 m ρ c) (Entry.W1_arg2 m ρ c) (Entry.W1_arg3 m ρ c)
      (funext fun k => (congrFun (Entry.W1_bias m ρ c) _).trans (Cert.KernelBody.shapeCast_row_apply _ _ k))

/-- At the end the result buffer holds the second layer of the hidden features. -/
theorem result_eq (c : Dev nD) : W4 m ρ c (Proc.devRef .tc main_v32) = resultSpec m c :=
  (W4_arr m ρ c 6).trans <| (Region1.final (V3 m ρ) c).trans <|
    Cert.Sage.layerLogSoftmax_congr
      ((Entry.W3_agg m ρ c).trans (congrArg (fun h => Glue.aggOf h (m ((c : Thread nD τ).loc main_arg1))) (hidden_eq m ρ c)))
      (funext fun n => (congrFun (Entry.W3_deg m ρ c) _).trans (Cert.LibKeepdims.shapeCast_col_apply _ _ n))
      ((Entry.W3_out m ρ c).trans (hidden_eq m ρ c)) (Entry.W3_arg5 m ρ c) (Entry.W3_arg6 m ρ c)
      (funext fun k => (congrFun (Entry.W3_bias m ρ c) _).trans (Cert.KernelBody.shapeCast_row_apply _ _ k))

end Cert.KernelIdeal.Whole

end
-- ==== Proof.RefRun.lean ====
/-
  The reference program's run, stated over its result as a composition of named stages.

  The program's 88 host operations are cut after the 38th, the one that writes the first layer's output `main_v29`.
  What the first 38 leave, from ANY contents `V` of the buffers: `main_v29` holds the hidden features
  `Stages.hidden` of `V`'s five first arguments, and the edge list and the second layer's three parameters
  (`main_arg1`, `main_arg5`, `main_arg6`, `main_arg7`) are what they were. What the last 50 leave, from ANY contents
  `W`: `main_v59` holds the second layer `Stages.dense2` of the neighbour sums and in-degrees recomputed from `W`'s
  edge list and `W`'s `main_v29`. The second layer slices the edge list again (`main_v30` … `main_v39`, `main_v42`,
  `main_v46` repeat `main_v0` … `main_v9`, `main_v12`, `main_v16`): both spell the same operations of `main_arg1`, so
  the two halves compose to `Stages.result` with nothing to prove about the slices. Each half is read off by the
  operations' result lemmas and then compared with the stage term once every stage name is unfolded, so the two sides
  are the same composition of host operations and no gather, scatter or reduction is ever opened.
-/
import proofs.«129082_j68676527063150_1_alg».proof.Proof.RefOps
import proofs.«129082_j68676527063150_1_alg».proof.Proof.RefTerm
import Idealize.ShloMosaic.Lib.StableHlo.Run

noncomputable section

namespace Cert.ReferenceIdeal.WholeRun

open Cert.ReferenceIdeal Cert.ReferenceIdeal.Gen Cert.ReferenceIdeal.RunOps Idealize.ShloMosaic Idealize.ShloMosaic.TcCoe Idealize.SL.Sem Idealize.ShloMosaic.StableHlo

variable {F : FTy → Type} [FloatOps F]

/-- The contents after two lines run one after the other: the second line's, from the first line's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The first layer's 38 operations. -/
abbrev opsA : List (HloOp τ sig (Elt F)) := (ops (F := F)).take 38
/-- The second layer's 50 operations. -/
abbrev opsB : List (HloOp τ sig (Elt F)) := (ops (F := F)).drop 38

theorem ops_split : (ops (F := F)) = opsA ++ opsB := (List.take_append_drop 38 _).symm

/-! ### A called function's typed references

The operations of an inlined call read and write through typed references: contents are moved between the value's
type and the buffer's own type along the equation of the two types. Storing at the buffer's type and reading back at
the value's type is the identity, for any typed reference; at a literal reference the two types are the same, so
each single move is the identity too (stated here for the four buffers through which the two calls meet @main). -/

/-- Reading back at the value's type what was stored at the buffer's type gives the value. -/
theorem ofBuf_toBuf {T : BufTy} (x : TRef sig T) (v : T.Contents (Elt F)) : x.ofBuf (x.toBuf v) = v := by
  obtain ⟨r, h, _, _⟩ := x
  subst h
  rfl

theorem ofBuf_v28 (z : (⟨S100000x64, .f32⟩ : BufTy).Contents (Elt F)) :
    (TRef.of (T := ⟨S100000x64, .f32⟩) main_v28).ofBuf z = z := rfl
theorem toBuf_v29 (z : (⟨S100000x64, .f32⟩ : BufTy).Contents (Elt F)) :
    (TRef.of (T := ⟨S100000x64, .f32⟩) main_v29).toBuf z = z := rfl
theorem ofBuf_v58 (z : (⟨S100000x16, .f32⟩ : BufTy).Contents (Elt F)) :
    (TRef.of (T := ⟨S100000x16, .f32⟩) main_v58).ofBuf z = z := rfl
theorem toBuf_v59 (z : (⟨S100000x16, .f32⟩ : BufTy).Contents (Elt F)) :
    (TRef.of (T := ⟨S100000x16, .f32⟩) main_v59).toBuf z = z := rfl

/-! ### The first layer, from any contents -/

set_option maxRecDepth 8192 in
/-- After the first layer's operations `main_v29` holds the hidden features of the first five arguments. -/
theorem opsA_v29 (V : Valuation τ sig (Elt F)) :
    after (opsA (F := F)) V (Proc.devRef .tc main_v29)
      = Stages.hidden (V (Proc.devRef .tc main_arg0)) (V (Proc.devRef .tc main_arg1)) (V (Proc.devRef .tc main_arg2)) (V (Proc.devRef .tc main_arg3)) (V (Proc.devRef .tc main_arg4)) := by
  delta Stages.hidden Stages.dense1 Stages.meanOf Stages.aggOf Stages.degOf Stages.dstCol Stages.srcCol Stages.srcVec
  simp only [opsA, ops, List.take_succ_cons, List.take_zero]
  after_results_simp
  simp only [ofBuf_toBuf, ofBuf_v28, toBuf_v29]
  rfl

set_option maxRecDepth 8192 in
/-- The first layer's operations do not write `main_arg1`. -/
theorem opsA_arg1 (V : Valuation τ sig (Elt F)) :
    after (opsA (F := F)) V (Proc.devRef .tc main_arg1) = V (Proc.devRef .tc main_arg1) := by
  simp only [opsA, ops, List.take_succ_cons, List.take_zero]
  after_results_simp

set_option maxRecDepth 8192 in
/-- The first layer's operations do not write `main_arg5`. -/
theorem opsA_arg5 (V : Valuation τ sig (Elt F)) :
    after (opsA (F := F)) V (Proc.devRef .tc main_arg5) = V (Proc.devRef .tc main_arg5) := by
  simp only [opsA, ops, List.take_succ_cons, List.take_zero]
  after_results_simp

set_option maxRecDepth 8192 in
/-- The first layer's operations do not write `main_arg6`. -/
theorem opsA_arg6 (V : Valuation τ sig (Elt F)) :
    after (opsA (F := F)) V (Proc.devRef .tc main_arg6) = V (Proc.devRef .tc main_arg6) := by
  simp only [opsA, ops, List.take_succ_cons, List.take_zero]
  after_results_simp

set_option maxRecDepth 8192 in
/-- The first layer's operations do not write `main_arg7`. -/
theorem opsA_arg7 (V : Valuation τ sig (Elt F)) :
    after (opsA (F := F)) V (Proc.devRef .tc main_arg7) = V (Proc.devRef .tc main_arg7) := by
  simp only [opsA, ops, List.take_succ_cons, List.take_zero]
  after_results_simp

/-! ### The second layer, from any contents -/

set_option maxRecDepth 8192 in
/-- After the second layer's operations `main_v59` holds the second layer of the neighbour sums and in-degrees
    taken from the edge list in `main_arg1` and the features in `main_v29`. -/
theorem opsB_v59 (W : Valuation τ sig (Elt F)) :
    after (opsB (F := F)) W (Proc.devRef .tc main_v59)
      = Stages.dense2 (Stages.aggOf (W (Proc.devRef .tc main_v29)) (W (Proc.devRef .tc main_arg1)))
          (Stages.degOf (W (Proc.devRef .tc main_arg1))) (W (Proc.devRef .tc main_v29))
          (W (Proc.devRef .tc main_arg5)) (W (Proc.devRef .tc main_arg6)) (W (Proc.devRef .tc main_arg7)) := by
  delta Stages.dense2 Stages.logSoftmaxOf Stages.shifted Stages.logits Stages.meanOf Stages.aggOf Stages.degOf Stages.dstCol Stages.srcCol Stages.srcVec
  simp only [opsB, ops, List.drop_succ_cons, List.drop_zero]
  after_results_simp
  simp only [ofBuf_toBuf, ofBuf_v58, toBuf_v59]
  rfl

/-! ### The whole program -/

/-- After all 88 operations, from any contents, `main_v59` holds the reference's result of the eight arguments. -/
theorem ops_v59 (V : Valuation τ sig (Elt F)) :
    after (ops (F := F)) V (Proc.devRef .tc main_v59)
      = Stages.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split, after_append', opsB_v59, opsA_v29, opsA_arg1, opsA_arg5, opsA_arg6, opsA_arg7]
  rfl

set_option maxRecDepth 8192 in
set_option maxHeartbeats 4000000 in
/-- On every device, for any float values, from any memory with zero counters: every weakly fair execution of
    @main terminates with the result buffer at the reference's staged term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
          = Stages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v59).trans (ops_v59 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.WholeRun

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.LibColForms.lean ====
/-
  A length-`n` vector made into a column [n, 1] in two ways — by a reshape, or by a broadcast that places the
  vector's axis on axis 0 of the column — is the same column: entry (r, 0) of either is the vector's entry r.
-/
import Idealize.ShloMosaic.Lib.Pipeline.Value
import Idealize.ShloMosaic.Lib.ValueIdx
import proofs.«129082_j68676527063150_1_alg».proof.Proof.LibKeepdims

noncomputable section

namespace Cert.LibColForms

open Idealize.ShloMosaic Idealize.ShloMosaic.ValueIdx

variable {α : Type} {n : ℕ}

/-- The column broadcast of a vector read at (r, 0) is the vector's entry r. -/
theorem broadcastInDim_col_apply (x : (⟨1, ![n]⟩ : Shape).Idx → α) (dims : Fin 1 → Fin 2) (hd : dims 0 = 0)
    (hb : (⟨1, ![n]⟩ : Shape).BroadcastsInDim ⟨2, ![n, 1]⟩ dims) (r : Fin n) :
    broadcastInDim ⟨2, ![n, 1]⟩ dims hb x (ix2 r (0 : Fin 1)) = x (ix1 r) :=
  broadcastInDim_apply dims hb x (ix2 r (0 : Fin 1)) (ix1 r) (fun a => by
    match a with
    | ⟨0, _⟩ =>
      show r.val = if n = 1 then 0 else ((ix2 r (0 : Fin 1)) (dims 0)).val
      rw [hd]
      show r.val = if n = 1 then 0 else r.val
      have := r.isLt
      split <;> omega)

/-- The reshape of a vector to a column is its column broadcast. -/
theorem shapeCast_col_eq_broadcastInDim (x : (⟨1, ![n]⟩ : Shape).Idx → α)
    (h : (⟨1, ![n]⟩ : Shape).ShapeCasts ⟨2, ![n, 1]⟩) (dims : Fin 1 → Fin 2) (hd : dims 0 = 0)
    (hb : (⟨1, ![n]⟩ : Shape).BroadcastsInDim ⟨2, ![n, 1]⟩ dims) :
    shapeCast ⟨2, ![n, 1]⟩ x h = broadcastInDim ⟨2, ![n, 1]⟩ dims hb x := by
  funext j
  obtain ⟨r, z, rfl⟩ : ∃ (r : Fin n) (z : Fin 1), j = ix2 r z := ⟨j 0, j 1, eq_ix2 j⟩
  obtain rfl : z = 0 := Subsingleton.elim _ _
  rw [Cert.LibKeepdims.shapeCast_col_apply, broadcastInDim_col_apply x dims hd hb r]

end Cert.LibColForms

end
-- ==== Proof.LibHostRows.lean ====
import Idealize.ShloMosaic.Lib.Pipeline.Value
import Idealize.ShloMosaic.Lib.ValueIdx
import Idealize.ShloMosaic.Lib.IdealHost
import Idealize.ShloMosaic.PureOps.Ideal.Laws

/-!
# A vector broadcast down the rows, and a column sum, read at an index

`jnp` broadcasts a vector of `C` entries against an `R × C` matrix in two steps, `[C] → [1, C] → [R, C]`;
read at `(r, c)` the result is the vector's entry `c` (`rowBroadcast_apply`).  A host sum of an `R × C`
matrix over its rows, read at `c` over the extended reals, is the initial value plus the sum over `r` of
the entries `(r, c)` (`colSum_apply`).  The extents are arbitrary naturals.
-/

noncomputable section

open scoped BigOperators

namespace Cert.LibHostRows

open Idealize.ShloMosaic Idealize.ShloMosaic.ValueIdx

/-- A vector broadcast down the rows of a matrix, read at an index: the vector at the column. -/
theorem rowBroadcast_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (y : (⟨1, ![C]⟩ : Shape).Idx → α) (i : (⟨2, ![R, C]⟩ : Shape).Idx) :
    broadcastInDim ⟨2, ![R, C]⟩ ![0, 1] h2 (broadcastInDim ⟨2, ![1, C]⟩ ![1] h1 y) i = y (ix1 (i 1)) := by
  have hc : (i 1).val < C := (i 1).isLt
  rw [broadcastInDim_apply _ h2 _ i (ix2 ⟨0, Nat.one_pos⟩ (i 1)) (fun a => match a with
      | ⟨0, _⟩ => by show (0 : ℕ) = if (1 : ℕ) = 1 then 0 else (i 0).val; rw [if_pos rfl]
      | ⟨1, _⟩ => by
        show (i 1).val = if C = 1 then 0 else (i 1).val
        split
        · omega
        · rfl),
    broadcastInDim_apply _ h1 y _ (ix1 (i 1)) (fun a => match a with
      | ⟨0, _⟩ => by
        show (i 1).val = if C = 1 then 0 else (i 1).val
        split
        · omega
        · rfl)]

/-- The host's sum of a matrix over its rows, read at a column over the extended reals. -/
theorem colSum_apply {R C : ℕ} {φ : FTy} {u : Shape}
    (hr : (⟨2, ![R, C]⟩ : Shape).ReducesTo [0] ⟨1, ![C]⟩) (hR : (⟨2, ![R, C]⟩ : Shape).Reduces [0] ⟨1, ![C]⟩)
    (hu : 0 < u.numel) (X : FVec Ideal ⟨2, ![R, C]⟩ φ) (c : u.Idx → Ideal φ) (j : (⟨1, ![C]⟩ : Shape).Idx) :
    Host.reduceAdd X c hr hu j = c (Shape.Idx.first hu) + ∑ r : Fin R, X (ix2 r (j 0)) := by
  rw [hostReduceAdd_apply, Ideal.hostReduceAdd_single hr hR]
  refine congrArg (_ + ·) (Finset.sum_congr rfl fun k _ => ?_)
  exact congrArg X (funext fun a => Fin.ext (by match a with | ⟨0, _⟩ => rfl | ⟨1, _⟩ => rfl))

end Cert.LibHostRows

end
-- ==== Proof.LibHostCols.lean ====
/-
  Three readings at an index for rank-2 arrays whose second axis is spread or folded, for any extents: a column
  [a, 1] broadcast along the rows of [a, b] by the broadcast that keeps both axes in place; the host's reduction with
  a maximum body over the second axis of an [a, b] array over the extended reals; and the host's sum over the second
  axis.  Each says which operand entries one result entry reads.
-/
import Idealize.ShloMosaic.Lib.Pipeline.Value
import Idealize.ShloMosaic.Lib.ValueIdx
import Idealize.ShloMosaic.Lib.IdealHost
import Idealize.ShloMosaic.PureOps.Reduce
import Idealize.ShloMosaic.PureOps.Ideal.Laws

noncomputable section

open scoped BigOperators

namespace Cert.LibHostCols

open Idealize.ShloMosaic Idealize.ShloMosaic.ValueIdx

variable {a b : ℕ}

/-- Entry `(n, c)` of a column [a, 1] broadcast to [a, b] with both axes kept in place is the column's entry
    `(n, 0)`: axis 0 is copied (or, when `a = 1`, is the only row), axis 1 has extent one in the operand. -/
theorem broadcastInDim_cols_apply {α : Type} (x : (⟨2, ![a, 1]⟩ : Shape).Idx → α)
    (hb : (⟨2, ![a, 1]⟩ : Shape).BroadcastsInDim ⟨2, ![a, b]⟩ ![0, 1]) (n : Fin a) (c : Fin b) :
    broadcastInDim ⟨2, ![a, b]⟩ ![0, 1] hb x (ix2 n c) = x (ix2 n (0 : Fin 1)) :=
  broadcastInDim_apply _ hb x (ix2 n c) (ix2 n (0 : Fin 1)) (fun k => by
    match k with
    | ⟨0, _⟩ =>
      show n.val = if a = 1 then 0 else n.val
      have := n.isLt
      split <;> omega
    | ⟨1, _⟩ =>
      show (0 : ℕ) = if (1 : ℕ) = 1 then 0 else c.val
      rw [if_pos rfl])

/-- A reduction over the second axis of an [a, b] array into [a], stated for the host (every axis may go), is one in
    the stricter sense too (the result keeps an axis). -/
theorem reduces_of_reducesTo (h' : (⟨2, ![a, b]⟩ : Shape).ReducesTo [1] ⟨1, ![a]⟩) :
    (⟨2, ![a, b]⟩ : Shape).Reduces [1] ⟨1, ![a]⟩ :=
  ⟨h'.1, Nat.one_pos, h'.2⟩

/-- The reduced index `n` of a reduction over the second axis with the coordinate `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy} {u : Shape}

/-- Row `n` of the host's reduce with a maximum body over the second axis: the fold of `max` over the entries of
    row `n`, in any order, from the initial value's first element. -/
theorem hostRowMax_apply (x : FVec Ideal ⟨2, ![a, b]⟩ φ) (init : u.Idx → Ideal φ)
    (h' : (⟨2, ![a, b]⟩ : Shape).ReducesTo [1] ⟨1, ![a]⟩) (hu : 0 < u.numel) (n : Fin a) :
    Host.reduce (FloatOps.maximumf (F := Ideal) (φ := φ)) x init h' hu (ix1 n)
      = (Finset.univ : Finset (Fin b)).fold max (init (Shape.Idx.first hu)) (fun k => x (ix2 n k)) := by
  have h := reduces_of_reducesTo h'
  have e1 := Host.reduce_eq_fold_single (FloatOps.maximumf (F := Ideal) (φ := φ)) x init h' h hu (ix1 n)
  exact e1.trans (congrArg (fun f : Fin b → EReal =>
      (Finset.univ : Finset (Fin b)).fold max (init (Shape.Idx.first hu)) f)
    (funext fun k => congrArg x (lift_row h n k)))

/-- Row `n` of the host's sum over the second axis: the initial value's first element plus the sum of the entries
    of row `n`. -/
theorem hostRowSum_apply (x : FVec Ideal ⟨2, ![a, b]⟩ φ) (init : u.Idx → Ideal φ)
    (h' : (⟨2, ![a, b]⟩ : Shape).ReducesTo [1] ⟨1, ![a]⟩) (hu : 0 < u.numel) (n : Fin a) :
    Host.reduceAdd x init h' hu (ix1 n) = init (Shape.Idx.first hu) + ∑ k : Fin b, x (ix2 n k) := by
  have h := reduces_of_reducesTo h'
  rw [hostReduceAdd_apply, Ideal.hostReduceAdd_single h' h]
  exact congrArg (_ + ·) (Finset.sum_congr rfl fun k _ => congrArg x (lift_row h n k))

end Cert.LibHostCols

end
-- ==== Proof.RefDense.lean ====
/-
  The reference's two dense stages are the specification's two layer functions, entry by entry.

  Each stage is a composition of pointwise operations, broadcasts, two matrix products and (for the second layer)
  two row reductions.  Read at an entry (n, c): a pointwise operation reads its operands at (n, c); a scalar broadcast
  reads the scalar; the degree column [N] → [N, 1] → [N, ·] reads the vector at n; the bias [C] → [1, C] → [N, C]
  reads the vector at c; a product reads the sum over the contracted coordinate; a row reduction reads the fold of
  its body over row n from the initial value.
-/
import proofs.«129082_j68676527063150_1_alg».proof.Proof.RefTerm
import proofs.«129082_j68676527063150_1_alg».proof.Proof.SageSpec
import proofs.«129082_j68676527063150_1_alg».proof.Proof.LibHostDot
import proofs.«129082_j68676527063150_1_alg».proof.Proof.LibColForms
import proofs.«129082_j68676527063150_1_alg».proof.Proof.LibHostRows
import proofs.«129082_j68676527063150_1_alg».proof.Proof.LibHostCols
import Idealize.ShloMosaic.Lib.IdealHost

noncomputable section

open scoped BigOperators

namespace Cert.ReferenceIdeal.Dense

open Cert.ReferenceIdeal Idealize.ShloMosaic Idealize.ShloMosaic.ValueIdx Idealize.SL.Sem

variable [Facts]
open Facts₀ Facts

/-- The degree-normalised neighbour sums at (n, k): the neighbour sum there divided by `max (deg n) 1`. The divisor
    is the degree vector compared with the constant one, made a column and spread along the row. -/
theorem meanOf_apply (agg : (⟨S100000x64, .f32⟩ : BufTy).Contents (Elt Ideal))
    (deg : (⟨S100000, .f32⟩ : BufTy).Contents (Elt Ideal)) (n : Fin 100000) (k : Fin 64) :
    Stages.meanOf (F := Ideal) agg deg (ix2 n k)
      = Ideal.div (agg (ix2 n k)) (max (deg (ix1 n)) Cert.Sage.one) := by
  unfold Stages.meanOf
  rw [hostDivf_apply, Cert.LibHostCols.broadcastInDim_cols_apply, Cert.LibColForms.broadcastInDim_col_apply _ _ rfl,
    maximumf_apply, broadcastInDim_scalar_apply, constant_apply]

/-- The host's logarithm is pointwise. -/
theorem hostLog_apply {s : Shape} {φ : FTy} (x : FVec Ideal s φ) (i : s.Idx) : Host.log x i = Ideal.log (x i) := rfl

/-- The host's exponential is pointwise. -/
theorem hostExp_apply {s : Shape} {φ : FTy} (x : FVec Ideal s φ) (i : s.Idx) : Host.exp x i = Ideal.exp (x i) := rfl

/-- The first layer's dense stage is the specification's first layer. -/
theorem dense1_eq (agg x : (⟨S100000x64, .f32⟩ : BufTy).Contents (Elt Ideal))
    (deg : (⟨S100000, .f32⟩ : BufTy).Contents (Elt Ideal)) (wl wr : (⟨S64x64, .f32⟩ : BufTy).Contents (Elt Ideal))
    (b : (⟨S64, .f32⟩ : BufTy).Contents (Elt Ideal)) :
    Stages.dense1 (F := Ideal) agg deg x wl wr b
      = Cert.Sage.layerRelu agg (fun n => deg (ix1 n)) x wl wr (fun k => b (ix1 k)) := by
  funext i
  obtain ⟨n, c, rfl⟩ : ∃ (n : Fin 100000) (c : Fin 64), i = ix2 n c := ⟨i 0, i 1, eq_ix2 i⟩
  unfold Stages.dense1 Cert.Sage.layerRelu Cert.Sage.pre
  rw [maximumf_apply, addf_apply, addf_apply, broadcastInDim_scalar_apply, constant_apply,
    Cert.LibHostRows.rowBroadcast_apply,
    Cert.LibHostDot.dotGeneral_plain_apply' dot_S100000x64_S64x64_S100000x64_1_0_0_1_n_n
      dot_S100000x64_S64x64_S100000x64_1_0_0_1_n_n_wf rfl,
    Cert.LibHostDot.dotGeneral_plain_apply' dot_S100000x64_S64x64_S100000x64_1_0_0_1_n_n
      dot_S100000x64_S64x64_S100000x64_1_0_0_1_n_n_wf rfl]
  simp only [meanOf_apply]

/-- The second layer's dense part before its activation at (n, c) is the specification's layer there. -/
theorem logits_apply (agg h : (⟨S100000x64, .f32⟩ : BufTy).Contents (Elt Ideal))
    (deg : (⟨S100000, .f32⟩ : BufTy).Contents (Elt Ideal)) (wl wr : (⟨S64x16, .f32⟩ : BufTy).Contents (Elt Ideal))
    (b : (⟨S16, .f32⟩ : BufTy).Contents (Elt Ideal)) (n : Fin 100000) (c : Fin 16) :
    Stages.logits (F := Ideal) agg deg h wl wr b (ix2 n c)
      = Cert.Sage.pre agg (fun n => deg (ix1 n)) h wl wr (fun k => b (ix1 k)) n c := by
  unfold Stages.logits Cert.Sage.pre
  rw [addf_apply, addf_apply, Cert.LibHostRows.rowBroadcast_apply,
    Cert.LibHostDot.dotGeneral_plain_apply' dot_S100000x64_S64x16_S100000x16_1_0_0_1_n_n
      dot_S100000x64_S64x16_S100000x16_1_0_0_1_n_n_wf rfl,
    Cert.LibHostDot.dotGeneral_plain_apply' dot_S100000x64_S64x16_S100000x16_1_0_0_1_n_n
      dot_S100000x64_S64x16_S100000x16_1_0_0_1_n_n_wf rfl]
  simp only [meanOf_apply]

/-- The shifted logits at (n, c): the entry minus the row's top. The top is the row's maximum from −∞ compared once
    more with −∞, made a column and spread along the row. -/
theorem shifted_apply (z : (⟨S100000x16, .f32⟩ : BufTy).Contents (Elt Ideal)) (n : Fin 100000) (c : Fin 16) :
    Stages.shifted (F := Ideal) z (ix2 n c) = z (ix2 n c) - Cert.Sage.rowTop (fun n j => z (ix2 n j)) n := by
  unfold Stages.shifted Cert.Sage.rowTop
  rw [subf_apply, Cert.LibHostCols.broadcastInDim_cols_apply, Cert.LibColForms.broadcastInDim_col_apply _ _ rfl,
    maximumf_apply, broadcastInDim_scalar_apply, constant_apply, Cert.LibHostCols.hostRowMax_apply, constant_apply]

/-- The row-wise log-softmax stage at (n, c) is the specification's log-softmax of the same rows. The row's sum of
    exponentials starts from the zero word, which adds nothing. -/
theorem logSoftmaxOf_apply (z : (⟨S100000x16, .f32⟩ : BufTy).Contents (Elt Ideal)) (n : Fin 100000) (c : Fin 16) :
    Stages.logSoftmaxOf (F := Ideal) z (ix2 n c) = Cert.Sage.logSoftmax (fun n j => z (ix2 n j)) n c := by
  unfold Stages.logSoftmaxOf Cert.Sage.logSoftmax
  rw [subf_apply, Cert.LibHostCols.broadcastInDim_cols_apply, hostLog_apply,
    Cert.LibColForms.broadcastInDim_col_apply _ _ rfl, Cert.LibHostCols.hostRowSum_apply, constant_apply,
    Ideal.ofBits_zero_f32, zero_add]
  simp only [hostExp_apply, shifted_apply]

/-- The second layer's dense stage is the specification's second layer. -/
theorem dense2_eq (agg h : (⟨S100000x64, .f32⟩ : BufTy).Contents (Elt Ideal))
    (deg : (⟨S100000, .f32⟩ : BufTy).Contents (Elt Ideal)) (wl wr : (⟨S64x16, .f32⟩ : BufTy).Contents (Elt Ideal))
    (b : (⟨S16, .f32⟩ : BufTy).Contents (Elt Ideal)) :
    Stages.dense2 (F := Ideal) agg deg h wl wr b
      = Cert.Sage.layerLogSoftmax agg (fun n => deg (ix1 n)) h wl wr (fun k => b (ix1 k)) := by
  funext i
  obtain ⟨n, c, rfl⟩ : ∃ (n : Fin 100000) (c : Fin 16), i = ix2 n c := ⟨i 0, i 1, eq_ix2 i⟩
  unfold Stages.dense2 Cert.Sage.layerLogSoftmax
  rw [logSoftmaxOf_apply]
  have e : (fun (n : Fin 100000) (j : Fin 16) => Stages.logits (F := Ideal) agg deg h wl wr b (ix2 n j))
      = Cert.Sage.pre agg (fun n => deg (ix1 n)) h wl wr (fun k => b (ix1 k)) :=
    funext fun n => funext fun j => logits_apply agg h deg wl wr b n j
  rw [e]

end Cert.ReferenceIdeal.Dense

end
-- ==== Proof.RefBridge.lean ====
/-
  The reference's result is the specification's two layers of its arguments.

  The reference's first dense stage is the specification's first layer function of the neighbour sums, the in-degrees
  and the node features; its second dense stage the second layer function of the neighbour sums of the hidden
  features, the same in-degrees and the hidden features. Chaining the two gives the whole result.
-/
import proofs.«129082_j68676527063150_1_alg».proof.Proof.RefDense
import proofs.«129082_j68676527063150_1_alg».proof.Proof.SageCongr

noncomputable section

namespace Cert.ReferenceIdeal.Bridge

open Cert.ReferenceIdeal Idealize.ShloMosaic Idealize.ShloMosaic.TcCoe Idealize.ShloMosaic.ValueIdx Idealize.SL.Sem

variable [Facts]

/-- The hidden features as the specification states them. -/
def hiddenSpec (x : (⟨S100000x64, .f32⟩ : BufTy).Contents (Elt Ideal)) (ei : (⟨S2x1600000, .i32⟩ : BufTy).Contents (Elt Ideal)) (w1l w1r : (⟨S64x64, .f32⟩ : BufTy).Contents (Elt Ideal)) (b1 : (⟨S64, .f32⟩ : BufTy).Contents (Elt Ideal)) :
    (⟨2, ![100000, 64]⟩ : Shape).Idx → EReal :=
  Cert.Sage.layerRelu (Stages.aggOf x ei) (fun n => Stages.degOf ei (ix1 n)) x w1l w1r (fun k => b1 (ix1 k))

/-- The result as the specification states it. -/
def resultSpec (x : (⟨S100000x64, .f32⟩ : BufTy).Contents (Elt Ideal)) (ei : (⟨S2x1600000, .i32⟩ : BufTy).Contents (Elt Ideal)) (w1l w1r : (⟨S64x64, .f32⟩ : BufTy).Contents (Elt Ideal)) (b1 : (⟨S64, .f32⟩ : BufTy).Contents (Elt Ideal))
    (w2l w2r : (⟨S64x16, .f32⟩ : BufTy).Contents (Elt Ideal)) (b2 : (⟨S16, .f32⟩ : BufTy).Contents (Elt Ideal)) : (⟨2, ![100000, 16]⟩ : Shape).Idx → EReal :=
  Cert.Sage.layerLogSoftmax (Stages.aggOf (hiddenSpec x ei w1l w1r b1) ei) (fun n => Stages.degOf ei (ix1 n)) (hiddenSpec x ei w1l w1r b1)
    w2l w2r (fun k => b2 (ix1 k))

theorem hidden_eq (x : (⟨S100000x64, .f32⟩ : BufTy).Contents (Elt Ideal)) (ei : (⟨S2x1600000, .i32⟩ : BufTy).Contents (Elt Ideal)) (w1l w1r : (⟨S64x64, .f32⟩ : BufTy).Contents (Elt Ideal)) (b1 : (⟨S64, .f32⟩ : BufTy).Contents (Elt Ideal)) :
    Stages.hidden (F := Ideal) x ei w1l w1r b1 = hiddenSpec x ei w1l w1r b1 :=
  Dense.dense1_eq (Stages.aggOf x ei) x (Stages.degOf ei) w1l w1r b1

theorem result_eq (x : (⟨S100000x64, .f32⟩ : BufTy).Contents (Elt Ideal)) (ei : (⟨S2x1600000, .i32⟩ : BufTy).Contents (Elt Ideal)) (w1l w1r : (⟨S64x64, .f32⟩ : BufTy).Contents (Elt Ideal)) (b1 : (⟨S64, .f32⟩ : BufTy).Contents (Elt Ideal))
    (w2l w2r : (⟨S64x16, .f32⟩ : BufTy).Contents (Elt Ideal)) (b2 : (⟨S16, .f32⟩ : BufTy).Contents (Elt Ideal)) :
    Stages.result (F := Ideal) x ei w1l w1r b1 w2l w2r b2 = resultSpec x ei w1l w1r b1 w2l w2r b2 :=
  (Dense.dense2_eq (Stages.aggOf (Stages.hidden x ei w1l w1r b1) ei) (Stages.hidden x ei w1l w1r b1) (Stages.degOf ei) w2l w2r b2).trans <|
    Cert.Sage.layerLogSoftmax_congr (congrArg (fun h => Stages.aggOf h ei) (hidden_eq x ei w1l w1r b1)) rfl
      (hidden_eq x ei w1l w1r b1) rfl rfl rfl

end Cert.ReferenceIdeal.Bridge

end
-- ==== Proof.lean ====
/-
  A two-layer mean-aggregation graph network, kernel against reference, over the extended reals.

  Both programs compute, for every node, `layer₂ (agg h) deg h` with `h = layer₁ (agg x) deg x`, where `agg` sums the
  features of a node's in-neighbours (a gather along the edge sources and a scatter-add onto the edge targets),
  `deg` counts them, and a layer is `(agg / max deg 1) · Wl + h · Wr + b` followed by `max · 0` (first layer) or by the
  row-wise log-softmax (second layer). The kernel evaluates the dense part of each layer in a pallas_call over ten
  blocks of 10000 nodes (the matrix products into zero accumulators, the lane maximum and lane sum of the
  log-softmax); the reference evaluates it with whole-array host operations. A layer acts on each node's row by
  itself, so the blocks are restrictions of one whole-array function, and index by index that function is the
  reference's: the products are the same sums over the 64 features, the maximum and the sum run over the same 16
  logits, the float words 1, 0 and −∞ are the same on both sides. The gather / scatter-add stages are literally
  the same host operations in both programs and are never opened. No algebraic law beyond this re-indexing is used,
  so the finiteness precondition is not needed for the equality.

  The three frames: the kernel's two are the generated ones; the reference's is its run with the result dropped.
  The idealization changed no operation, so `preserves` is trivial.
-/
import proofs.«129082_j68676527063150_1_alg».proof.Defs
import proofs.«129082_j68676527063150_1_alg».proof.Proof.Gen.Kernel
import proofs.«129082_j68676527063150_1_alg».proof.Proof.Gen.Kernel.Skeleton
import proofs.«129082_j68676527063150_1_alg».proof.Proof.Gen.Kernel.Launch
import proofs.«129082_j68676527063150_1_alg».proof.Proof.Gen.Kernel.Points
import proofs.«129082_j68676527063150_1_alg».proof.Proof.Gen.Kernel.Frame
import proofs.«129082_j68676527063150_1_alg».proof.Proof.Gen.KernelIdeal
import proofs.«129082_j68676527063150_1_alg».proof.Proof.Gen.KernelIdeal.Skeleton
import proofs.«129082_j68676527063150_1_alg».proof.Proof.Gen.KernelIdeal.Launch
import proofs.«129082_j68676527063150_1_alg».proof.Proof.Gen.KernelIdeal.Points
import proofs.«129082_j68676527063150_1_alg».proof.Proof.Gen.KernelIdeal.Frame
import proofs.«129082_j68676527063150_1_alg».proof.Proof.Gen.ReferenceIdeal
import proofs.«129082_j68676527063150_1_alg».proof.Proof.Gen.Pre_finite_inputs
import proofs.«129082_j68676527063150_1_alg».proof.Proof.KernelRun
import proofs.«129082_j68676527063150_1_alg».proof.Proof.KernelValue
import proofs.«129082_j68676527063150_1_alg».proof.Proof.RefRun
import proofs.«129082_j68676527063150_1_alg».proof.Proof.RefBridge
import proofs.«129082_j68676527063150_1_alg».proof.Proof.KernelGlue
import proofs.«129082_j68676527063150_1_alg».proof.Proof.SageCongr
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.WholeRun.run (F := Ideal) m ρ)

theorem preserves : Cert.preserves_Kernel_KernelIdeal := trivial

/-- The kernel's statement of the result (its own spelling of the neighbour-sum and in-degree stages) is the
    reference's statement at the same arguments: the stages agree, so the two layer functions get equal arguments. -/
theorem specs_agree (m : (ℓ : Loc Cert.KernelIdeal.nD Cert.KernelIdeal.τ Cert.KernelIdeal.sig) → Buf (Elt Ideal) ℓ)
    (c : Dev Cert.KernelIdeal.nD) :
    Cert.ReferenceIdeal.Bridge.resultSpec
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Whole.resultSpec m c := by
  have hh : Cert.ReferenceIdeal.Bridge.hiddenSpec
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Whole.hiddenSpec m c :=
    Cert.Sage.layerRelu_congr (Cert.KernelIdeal.Glue.aggOf_eq _ _).symm
      (funext fun n => (congrFun (Cert.KernelIdeal.Glue.degOf_eq _) (ix1 n)).symm) rfl rfl rfl rfl
  exact Cert.Sage.layerLogSoftmax_congr
    ((congrArg (fun h => Cert.ReferenceIdeal.Stages.aggOf h _) hh).trans (Cert.KernelIdeal.Glue.aggOf_eq _ _).symm)
    (funext fun n => (congrFun (Cert.KernelIdeal.Glue.degOf_eq _) (ix1 n)).symm) hh rfl rfl rfl

/-- Both programs, run from memories agreeing on the arguments, end with the specification's two layers of the
    arguments in their result buffers. -/
theorem algebraic : Cert.algebraic_KernelIdeal_ReferenceIdeal := by
  intro m ρ m' ρ' _ hagree
  refine ⟨fun c => Cert.KernelIdeal.Whole.resultSpec m c, ?_, ?_⟩
  · exact (θ_run Cert.KernelIdeal.defs _ _).mono
      (fun _ h c => ⟨(h c).1.trans (Cert.KernelIdeal.Whole.result_eq m ρ c), (h c).2⟩)
      (Cert.KernelIdeal.WholeRun.run (F := Ideal) m ρ)
  · refine (θ_run Cert.ReferenceIdeal.defs _ _).mono (fun _ h c => ⟨(h c).1.trans ?_, (h c).2⟩)
      (Cert.ReferenceIdeal.WholeRun.run (F := Ideal) m' ρ')
    obtain ⟨h0, h1, h2, h3, h4, h5, h6, h7⟩ := hagree c
    rw [h0, h1, h2, h3, h4, h5, h6, h7]
    exact (Cert.ReferenceIdeal.Bridge.result_eq _ _ _ _ _ _ _ _).trans (specs_agree m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
